-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_arg1)) (v3 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x3 : Shape := ⟨3, ![16, 2048, 3]⟩
abbrev S16x2048x512 : Shape := ⟨3, ![16, 2048, 512]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel

variable [Facts]

def fn {F : FTy → Type} [FloatOps F] (main_arg0 : FVec F S16x2048x3 .f32) (main_arg1 : IVec S16x2048x512 32) (main_arg2 : IVec S16x2048x512 32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  main_v3
-- ==== Kernel.lean ====
abbrev S16x2048x3 : Shape := ⟨3, ![16, 2048, 3]⟩
abbrev S16x2048x512 : Shape := ⟨3, ![16, 2048, 512]⟩
abbrev S16x2048x1 : Shape := ⟨3, ![16, 2048, 1]⟩
abbrev S16x2048 : Shape := ⟨2, ![16, 2048]⟩
abbrev S_ : Shape := ⟨0, ![]⟩
abbrev S16x2048x512x1 : Shape := ⟨4, ![16, 2048, 512, 1]⟩
abbrev S16x3x2048 : Shape := ⟨3, ![16, 3, 2048]⟩
abbrev S16x3x2048x512 : Shape := ⟨4, ![16, 3, 2048, 512]⟩
abbrev S1x3x512 : Shape := ⟨3, ![1, 3, 512]⟩
abbrev S1x512x512 : Shape := ⟨3, ![1, 512, 512]⟩
abbrev S1x3x512x512 : Shape := ⟨4, ![1, 3, 512, 512]⟩
abbrev S1x1x512 : Shape := ⟨3, ![1, 1, 512]⟩
abbrev S512 : Shape := ⟨1, ![512]⟩
abbrev S512x1 : Shape := ⟨2, ![512, 1]⟩
abbrev S512x512 : Shape := ⟨2, ![512, 512]⟩
abbrev S1x1x512x512 : Shape := ⟨4, ![1, 1, 512, 512]⟩
abbrev S16x2048x512x3 : Shape := ⟨4, ![16, 2048, 512, 3]⟩

abbrev nBuf : Space → Nat
  | .hbm => 40
  | .vmem => 14
  | .smem => 0
  | _ => 0

abbrev bufTy : (tb : Table) → Fin (tcTables nBuf tb) → BufTy
  | .hbm, ⟨0, _⟩ => ⟨S16x2048x3, .f32⟩
  | .hbm, ⟨1, _⟩ => ⟨S16x2048x512, .i32⟩
  | .hbm, ⟨2, _⟩ => ⟨S16x2048x512, .i32⟩
  | .hbm, ⟨3, _⟩ => ⟨S16x2048x1, .f32⟩
  | .hbm, ⟨4, _⟩ => ⟨S16x2048, .f32⟩
  | .hbm, ⟨5, _⟩ => ⟨S_, .i32⟩
  | .hbm, ⟨6, _⟩ => ⟨S16x2048x512, .i32⟩
  | .hbm, ⟨7, _⟩ => ⟨S16x2048x512, .i1⟩
  | .hbm, ⟨8, _⟩ => ⟨S_, .i32⟩
  | .hbm, ⟨9, _⟩ => ⟨S16x2048x512, .i32⟩
  | .hbm, ⟨10, _⟩ => ⟨S16x2048x512, .i32⟩
  | .hbm, ⟨11, _⟩ => ⟨S16x2048x512, .i32⟩
  | .hbm, ⟨12, _⟩ => ⟨S16x2048x512x1, .i32⟩
  | .hbm, ⟨13, _⟩ => ⟨S16x2048x512, .f32⟩
  | .hbm, ⟨14, _⟩ => ⟨S16x2048x1, .f32⟩
  | .hbm, ⟨15, _⟩ => ⟨S16x2048, .f32⟩
  | .hbm, ⟨16, _⟩ => ⟨S_, .i32⟩
  | .hbm, ⟨17, _⟩ => ⟨S16x2048x512, .i32⟩
  | .hbm, ⟨18, _⟩ => ⟨S16x2048x512, .i1⟩
  | .hbm, ⟨19, _⟩ => ⟨S_, .i32⟩
  | .hbm, ⟨20, _⟩ => ⟨S16x2048x512, .i32⟩
  | .hbm, ⟨21, _⟩ => ⟨S16x2048x512, .i32⟩
  | .hbm, ⟨22, _⟩ => ⟨S16x2048x512, .i32⟩
  | .hbm, ⟨23, _⟩ => ⟨S16x2048x512x1, .i32⟩
  | .hbm, ⟨24, _⟩ => ⟨S16x2048x512, .f32⟩
  | .hbm, ⟨25, _⟩ => ⟨S16x2048x1, .f32⟩
  | .hbm, ⟨26, _⟩ => ⟨S16x2048, .f32⟩
  | .hbm, ⟨27, _⟩ => ⟨S_, .i32⟩
  | .hbm, ⟨28, _⟩ => ⟨S16x2048x512, .i32⟩
  | .hbm, ⟨29, _⟩ => ⟨S16x2048x512, .i1⟩
  | .hbm, ⟨30, _⟩ => ⟨S_, .i32⟩
  | .hbm, ⟨31, _⟩ => ⟨S16x2048x512, .i32⟩
  | .hbm, ⟨32, _⟩ => ⟨S16x2048x512, .i32⟩
  | .hbm, ⟨33, _⟩ => ⟨S16x2048x512, .i32⟩
  | .hbm, ⟨34, _⟩ => ⟨S16x2048x512x1, .i32⟩
  | .hbm, ⟨35, _⟩ => ⟨S16x2048x512, .f32⟩
  | .hbm, ⟨36, _⟩ => ⟨S16x3x2048, .f32⟩
  | .hbm, ⟨37, _⟩ => ⟨S16x2048x512, .f32⟩
  | .hbm, ⟨38, _⟩ => ⟨S16x3x2048x512, .f32⟩
  | .hbm, ⟨39, _⟩ => ⟨S16x2048x512x3, .f32⟩
  | .local _ .vmem, ⟨0, _⟩ => ⟨S1x3x512, .f32⟩
  | .local _ .vmem, ⟨1, _⟩ => ⟨S1x3x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .i32⟩
  | .local _ .vmem, ⟨9, _⟩ => ⟨S1x512x512, .i32⟩
  | .local _ .vmem, ⟨10, _⟩ => ⟨S1x512x512, .f32⟩
  | .local _ .vmem, ⟨11, _⟩ => ⟨S1x512x512, .f32⟩
  | .local _ .vmem, ⟨12, _⟩ => ⟨S1x3x512x512, .f32⟩
  | .local _ .vmem, ⟨13, _⟩ => ⟨S1x3x512x512, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S16x2048x3_S16x2048x1_0_0_0 : S16x2048x3.Slices ![0, 0, 0] S16x2048x1
  shapeCasts_S16x2048x1_S16x2048 : S16x2048x1.ShapeCasts S16x2048
  bcast_S_S16x2048x512 : S_.BroadcastsInDim S16x2048x512 (![] : Fin 0 → Fin S16x2048x512.rank)
  bcast_S16x2048x512_S16x2048x512x1_0_1_2 : S16x2048x512.BroadcastsInDim S16x2048x512x1 (![0, 1, 2] : Fin 3 → Fin S16x2048x512x1.rank)
  slices_S16x2048x3_S16x2048x1_0_0_1 : S16x2048x3.Slices ![0, 0, 1] S16x2048x1
  slices_S16x2048x3_S16x2048x1_0_0_2 : S16x2048x3.Slices ![0, 0, 2] S16x2048x1
  transposes_S16x2048x3_S16x3x2048_0_2_1 : S16x2048x3.Transposes [0, 2, 1] S16x3x2048
  inb_S1x3x512_S1x1x512_0_0_0 : ∀ a, (![0, 0, 0] : Fin 3 → Nat) a + S1x1x512.size a ≤ S1x3x512.size a
  h_S1x1x512 : 0 < S1x1x512.numel
  shapeCasts_S1x1x512_S512 : S1x1x512.ShapeCasts S512
  shapeCasts_S512_S512x1 : S512.ShapeCasts S512x1
  inb_S1x3x512_S1x1x512_0_1_0 : ∀ a, (![0, 1, 0] : Fin 3 → Nat) a + S1x1x512.size a ≤ S1x3x512.size a
  inb_S1x3x512_S1x1x512_0_2_0 : ∀ a, (![0, 2, 0] : Fin 3 → Nat) a + S1x1x512.size a ≤ S1x3x512.size a
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  broadcasts_S512x1_S512x512 : S512x1.Broadcasts S512x512
  shapeCasts_S512x512_S1x512x512 : S512x512.ShapeCasts S1x512x512
  inb_S1x3x512x512_S1x1x512x512_0_0_0_0 : ∀ a, (![0, 0, 0, 0] : Fin 4 → Nat) a + S1x1x512x512.size a ≤ S1x3x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  inb_S1x3x512x512_S1x1x512x512_0_1_0_0 : ∀ a, (![0, 1, 0, 0] : Fin 4 → Nat) a + S1x1x512x512.size a ≤ S1x3x512x512.size a
  inb_S1x3x512x512_S1x1x512x512_0_2_0_0 : ∀ a, (![0, 2, 0, 0] : Fin 4 → Nat) a + S1x1x512x512.size a ≤ S1x3x512x512.size a
  transposes_S16x3x2048x512_S16x2048x512x3_0_2_3_1 : S16x3x2048x512.Transposes [0, 2, 3, 1] S16x2048x512x3
  gather_S16x2048_S16x2048x512x1_S16x2048x512_n_1_0_0_1_3_11_wf : GatherDims.WF S16x2048 S16x2048x512x1 S16x2048x512 [] [1] [0] [1] [0] 3 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512.size a ≤ S16x3x2048.size a
  hwx0_0 : ∀ i : grid0.Coords, EltTy.bits .f32 = 32 ∨ (Rect.block (s := S16x3x2048) S1x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S16x2048x512.size a
  hwx0_1 : ∀ i : grid0.Coords, EltTy.bits .f32 = 32 ∨ (Rect.block (s := S16x2048x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S16x2048x512.size a
  hwx0_2 : ∀ i : grid0.Coords, EltTy.bits .f32 = 32 ∨ (Rect.block (s := S16x2048x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S16x2048x512.size a
  hwx0_3 : ∀ i : grid0.Coords, EltTy.bits .f32 = 32 ∨ (Rect.block (s := S16x2048x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S16x2048x512.size a
  hwx0_4 : ∀ i : grid0.Coords, EltTy.bits .i32 = 32 ∨ (Rect.block (s := S16x2048x512) S1x512x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S16x2048x512.size a
  hwx0_5 : ∀ i : grid0.Coords, EltTy.bits .f32 = 32 ∨ (Rect.block (s := S16x2048x512) S1x512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x3x512x512.size a ≤ S16x3x2048x512.size a
  hwx0_6 : ∀ i : grid0.Coords, EltTy.bits .f32 = 32 ∨ (Rect.block (s := S16x3x2048x512) S1x3x512x512.size (cc0_transform_6 i) (hinb0_6 i)).WholeWords (EltTy.packing .f32)

variable [Facts₀]

def gather_S16x2048_S16x2048x512x1_S16x2048x512_n_1_0_0_1_3_11 : GatherDims S16x2048 S16x2048x512x1 S16x2048x512 where
  offsetDims := []
  collapsedSliceDims := [1]
  operandBatchingDims := [0]
  startIndicesBatchingDims := [0]
  startIndexMap := [1]
  indexVectorDim := 3
  sliceSizes := ![1, 1]
  wf := gather_S16x2048_S16x2048x512x1_S16x2048x512_n_1_0_0_1_3_11_wf

abbrev win0_0 : Pipeline.Window sig grid0 :=
  Pipeline.Window.ofSpec (Memref.whole main_v27) S1x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28_0) S1x512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28_1) S1x3x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x2048x3 : Shape := ⟨3, ![16, 2048, 3]⟩
abbrev S16x2048x512 : Shape := ⟨3, ![16, 2048, 512]⟩
abbrev S_ : Shape := ⟨0, ![]⟩
abbrev S16x2048x512x1 : Shape := ⟨4, ![16, 2048, 512, 1]⟩
abbrev S16x2048x512x3 : Shape := ⟨4, ![16, 2048, 512, 3]⟩
abbrev S16x2048x1x3 : Shape := ⟨4, ![16, 2048, 1, 3]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x512, .i32⟩
  | .hbm, ⟨2, _⟩ => ⟨S16x2048x512, .i32⟩
  | .hbm, ⟨3, _⟩ => ⟨S_, .i32⟩
  | .hbm, ⟨4, _⟩ => ⟨S16x2048x512, .i32⟩
  | .hbm, ⟨5, _⟩ => ⟨S16x2048x512, .i1⟩
  | .hbm, ⟨6, _⟩ => ⟨S_, .i32⟩
  | .hbm, ⟨7, _⟩ => ⟨S16x2048x512, .i32⟩
  | .hbm, ⟨8, _⟩ => ⟨S16x2048x512, .i32⟩
  | .hbm, ⟨9, _⟩ => ⟨S16x2048x512, .i32⟩
  | .hbm, ⟨10, _⟩ => ⟨S16x2048x512x1, .i32⟩
  | .hbm, ⟨11, _⟩ => ⟨S16x2048x512x3, .f32⟩
  | .hbm, ⟨12, _⟩ => ⟨S16x2048x1x3, .f32⟩
  | .hbm, ⟨13, _⟩ => ⟨S16x2048x512x3, .f32⟩
  | .hbm, ⟨14, _⟩ => ⟨S16x2048x512x3, .f32⟩
  | .hbm, ⟨15, _⟩ => ⟨S16x2048x512x3, .f32⟩
  | .hbm, ⟨16, _⟩ => ⟨S_, .f32⟩
  | .hbm, ⟨17, _⟩ => ⟨S16x2048x512, .f32⟩
  | .hbm, ⟨18, _⟩ => ⟨S16x2048x512, .f32⟩
  | .hbm, ⟨19, _⟩ => ⟨S_, .i32⟩
  | .hbm, ⟨20, _⟩ => ⟨S16x2048x512, .i32⟩
  | .hbm, ⟨21, _⟩ => ⟨S16x2048x512, .i1⟩
  | .hbm, ⟨22, _⟩ => ⟨S_, .f32⟩
  | .hbm, ⟨23, _⟩ => ⟨S_, .f32⟩
  | .hbm, ⟨24, _⟩ => ⟨S16x2048x512, .f32⟩
  | .hbm, ⟨25, _⟩ => ⟨S16x2048x512, .f32⟩
  | .hbm, ⟨26, _⟩ => ⟨S_, .f32⟩
  | .hbm, ⟨27, _⟩ => ⟨S16x2048x512, .f32⟩
  | .hbm, ⟨28, _⟩ => ⟨S16x2048x512, .f32⟩
  | .hbm, ⟨29, _⟩ => ⟨S_, .f32⟩
  | .hbm, ⟨30, _⟩ => ⟨S_, .f32⟩
  | .hbm, ⟨31, _⟩ => ⟨S16x2048x512, .f32⟩
  | .hbm, ⟨32, _⟩ => ⟨S16x2048x512, .f32⟩
  | .hbm, ⟨33, _⟩ => ⟨S16x2048x512x1, .f32⟩
  | .hbm, ⟨34, _⟩ => ⟨S16x2048x512x3, .f32⟩
  | .hbm, ⟨35, _⟩ => ⟨S16x2048x512x3, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call2_v0 : Ref sig .tc := ⟨.hbm, 30, rfl⟩
abbrev main_call2_v1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  bcast_S_S16x2048x512 : S_.BroadcastsInDim S16x2048x512 (![] : Fin 0 → Fin S16x2048x512.rank)
  bcast_S16x2048x512_S16x2048x512x1_0_1_2 : S16x2048x512.BroadcastsInDim S16x2048x512x1 (![0, 1, 2] : Fin 3 → Fin S16x2048x512x1.rank)
  bcast_S16x2048x3_S16x2048x1x3_0_1_3 : S16x2048x3.BroadcastsInDim S16x2048x1x3 (![0, 1, 3] : Fin 3 → Fin S16x2048x1x3.rank)
  bcast_S16x2048x1x3_S16x2048x512x3_0_1_2_3 : S16x2048x1x3.BroadcastsInDim S16x2048x512x3 (![0, 1, 2, 3] : Fin 4 → Fin S16x2048x512x3.rank)
  reducesTo_S16x2048x512x3_S16x2048x512_d3 : S16x2048x512x3.ReducesTo [3] S16x2048x512
  h_S_ : 0 < S_.numel
  bcast_S16x2048x512x1_S16x2048x512x3_0_1_2_3 : S16x2048x512x1.BroadcastsInDim S16x2048x512x3 (![0, 1, 2, 3] : Fin 4 → Fin S16x2048x512x3.rank)
  gather_S16x2048x3_S16x2048x512x1_S16x2048x512x3_3_1_0_0_1_3_113_wf : GatherDims.WF S16x2048x3 S16x2048x512x1 S16x2048x512x3 [3] [1] [0] [1] [0] 3 ![1, 1, 3]

variable [Facts₀]

def gather_S16x2048x3_S16x2048x512x1_S16x2048x512x3_3_1_0_0_1_3_113 : GatherDims S16x2048x3 S16x2048x512x1 S16x2048x512x3 where
  offsetDims := [3]
  collapsedSliceDims := [1]
  operandBatchingDims := [0]
  startIndicesBatchingDims := [0]
  startIndexMap := [1]
  indexVectorDim := 3
  sliceSizes := ![1, 1, 3]
  wf := gather_S16x2048x3_S16x2048x512x1_S16x2048x512x3_3_1_0_0_1_3_113_wf

class Facts : Prop extends Facts₀ where

variable [Facts]
-- ==== Proof.Spec.lean ====
/-
  The mathematics both programs compute, element by element, over the extended reals.

  For a batch `b`, an atom `a` and a neighbour slot `n`, let `r` be the neighbour's row: the start index the
  programs build from the neighbour list, read as a signed integer and clamped into `[0, 2047]`.  The difference
  vector is `d c = atoms[b, r, c] - atoms[b, a, c]` for the three coordinates `c`; the distance is
  `sqrt (d 0 * d 0 + d 1 * d 1 + d 2 * d 2)` where the mask bit is set and `0` elsewhere; the divisor is the
  distance plus a small positive constant where the mask bit is set and `1` elsewhere; and the scaled vector is
  `d c` times the reciprocal of the divisor.  The divisor is never zero (a square is non-negative on the extended
  reals, so the distance is, and the constant is positive), which is why multiplying by the reciprocal and
  dividing agree, infinite entries included.
-/
import Idealize.ShloMosaic.PureOps.Ideal
import Idealize.ShloMosaic.Lib.ValueIdx

noncomputable section

open scoped BigOperators

namespace Cert.Nbr

open Idealize.ShloMosaic Idealize.ShloMosaic.ValueIdx

/-- The atoms' coordinates, `[batch, atom, coordinate]`. -/
abbrev SA : Shape := ⟨3, ![16, 2048, 3]⟩
/-- The neighbour lists and the mask, `[batch, atom, slot]`. -/
abbrev SN : Shape := ⟨3, ![16, 2048, 512]⟩
/-- The start indices handed to the gather, `[batch, atom, slot, 1]`. -/
abbrev SI : Shape := ⟨4, ![16, 2048, 512, 1]⟩
/-- The difference vectors, `[batch, atom, slot, coordinate]`. -/
abbrev SV : Shape := ⟨4, ![16, 2048, 512, 3]⟩

/-- The three float constants: `0`, the small positive guard, and `1`. -/
abbrev zero32 : EReal := Ideal.ofBits .f32 0x00000000#32
abbrev eps32 : EReal := Ideal.ofBits .f32 0x322BCC77#32
abbrev one32 : EReal := Ideal.ofBits .f32 0x3F800000#32

/-! ## One element, from the three differences and the mask bit -/

/-- The squared length of a difference vector, summed in the order `(x² + y²) + z²`. -/
def ssq3 (d0 d1 d2 : EReal) : EReal := d0 * d0 + d1 * d1 + d2 * d2
/-- The masked distance. -/
def distOf (bit : BitVec 1) (d0 d1 d2 : EReal) : EReal := Scalar.select bit (Ideal.sqrt (ssq3 d0 d1 d2)) zero32
/-- The divisor: the masked distance plus the guard where the mask is set, `1` elsewhere. -/
def tmpOf (bit : BitVec 1) (d0 d1 d2 : EReal) : EReal := Scalar.select bit (distOf bit d0 d1 d2 + eps32) one32
/-- One scaled component: the difference times the reciprocal of the divisor. -/
def vecOf (bit : BitVec 1) (d0 d1 d2 d : EReal) : EReal := d * Ideal.div one32 (tmpOf bit d0 d1 d2)

/-! ## The arrays -/

/-- The neighbour's row: the start index read signed and clamped into `[0, 2047]`. -/
def row (I : IVec SI 32) (b : Fin 16) (a : Fin 2048) (n : Fin 512) : Fin 2048 :=
  ⟨min (I (ix4 b a n (0 : Fin 1))).toInt.toNat 2047, by omega⟩
/-- The mask bit: the mask word is not zero. -/
def bit (M : IVec SN 32) (b : Fin 16) (a : Fin 2048) (n : Fin 512) : BitVec 1 := IntOp.cmpi .ne (M (ix3 b a n)) 0#32
/-- One component of the difference vector: the neighbour's coordinate minus the atom's. -/
def dv (A : SA.Idx → EReal) (I : IVec SI 32) (b : Fin 16) (a : Fin 2048) (n : Fin 512) (c : Fin 3) : EReal :=
  A (ix3 b (row I b a n) c) - A (ix3 b a c)
/-- The masked distance at `(b, a, n)`. -/
def dist (A : SA.Idx → EReal) (I : IVec SI 32) (M : IVec SN 32) (b : Fin 16) (a : Fin 2048) (n : Fin 512) : EReal :=
  distOf (bit M b a n) (dv A I b a n 0) (dv A I b a n 1) (dv A I b a n 2)
/-- The divisor at `(b, a, n)`. -/
def tmp (A : SA.Idx → EReal) (I : IVec SI 32) (M : IVec SN 32) (b : Fin 16) (a : Fin 2048) (n : Fin 512) : EReal :=
  tmpOf (bit M b a n) (dv A I b a n 0) (dv A I b a n 1) (dv A I b a n 2)
/-- The scaled difference vector's component `c` at `(b, a, n)`. -/
def vec (A : SA.Idx → EReal) (I : IVec SI 32) (M : IVec SN 32) (b : Fin 16) (a : Fin 2048) (n : Fin 512) (c : Fin 3) : EReal :=
  vecOf (bit M b a n) (dv A I b a n 0) (dv A I b a n 1) (dv A I b a n 2) (dv A I b a n c)

/-- The first result: every masked distance. -/
def distances (A : SA.Idx → EReal) (I : IVec SI 32) (M : IVec SN 32) : SN.Idx → EReal :=
  fun i => dist A I M (i 0) (i 1) (i 2)
/-- The second result: every scaled difference vector. -/
def vectors (A : SA.Idx → EReal) (I : IVec SI 32) (M : IVec SN 32) : SV.Idx → EReal :=
  fun i => vec A I M (i 0) (i 1) (i 2) (i 3)

end Cert.Nbr

end
-- ==== Proof.Laws.lean ====
/-
  The two laws that join the two programs' arithmetic on the extended reals, and the facts they rest on.

  * A sum of the three squares started from the zero word, in any grouping, is `(x² + y²) + z²`: addition of
    extended reals is commutative and associative, with no finiteness needed.
  * The divisor is never zero: a square is non-negative on the extended reals (also at the infinities), so is a sum
    of squares and its square root; the guard constant is a positive real; and the other branch is the constant `1`.
    Off zero, the quotient `d / t` is `d * t⁻¹` and the reciprocal `1 / t` is `t⁻¹`, so multiplying by the
    reciprocal is dividing.
-/
import proofs.«178371_j66245575573883_2_alg».proof.Proof.Spec
import Idealize.ShloMosaic.PureOps.Ideal.Laws

noncomputable section

open scoped BigOperators

namespace Cert.Nbr

open Idealize.ShloMosaic Idealize.ShloMosaic.ValueIdx

/-- A sum of the three squares from the zero word, in any grouping, is `ssq3`. -/
theorem sum_sq_eq (d : Fin 3 → EReal) : zero32 + ∑ k : Fin 3, d k * d k = ssq3 (d 0) (d 1) (d 2) := by
  show Ideal.ofBits .f32 0x00000000#32 + _ = _
  rw [Ideal.ofBits_zero_f32, zero_add, Fin.sum_univ_three]; rfl

/-- A square is non-negative on the extended reals, the infinities included. -/
theorem mul_self_nonneg' (x : EReal) : 0 ≤ x * x := by
  induction x using EReal.rec with
  | bot => rw [EReal.bot_mul_bot]; exact le_top
  | top => rw [EReal.top_mul_top]; exact le_top
  | coe r => rw [← EReal.coe_mul]; exact_mod_cast mul_self_nonneg r

theorem ssq3_nonneg (d0 d1 d2 : EReal) : 0 ≤ ssq3 d0 d1 d2 :=
  add_nonneg (add_nonneg (mul_self_nonneg' d0) (mul_self_nonneg' d1)) (mul_self_nonneg' d2)

/-- The square root of a non-negative extended real is non-negative. -/
theorem sqrt_nonneg_of_nonneg {x : EReal} (h : 0 ≤ x) : 0 ≤ Ideal.sqrt x := by
  induction x using EReal.rec with
  | bot => exact absurd h (by simp)
  | top => simp
  | coe r =>
    have hr : ¬ r < 0 := not_lt.2 (by exact_mod_cast h)
    rw [Ideal.sqrt_coe, if_neg hr]
    exact_mod_cast Real.sqrt_nonneg r

/-- The guard is a positive real. -/
theorem eps32_pos : 0 < eps32 := by
  show 0 < Ideal.ofBits .f32 0x322BCC77#32
  simp [Ideal.ofBits, Ideal.ieee, -EReal.coe_mul]

/-- The word for `1` denotes `1`. -/
theorem one32_eq : one32 = 1 := by
  show Ideal.ofBits .f32 0x3F800000#32 = 1
  simp [Ideal.ofBits, Ideal.ieee, -EReal.coe_mul]; norm_num

/-- The divisor is never zero. -/
theorem tmpOf_ne_zero (bit : BitVec 1) (d0 d1 d2 : EReal) : tmpOf bit d0 d1 d2 ≠ 0 := by
  unfold tmpOf distOf
  rcases BitVec.eq_zero_or_eq_one bit with h | h
  · subst h; rw [select_zero, one32_eq]; exact one_ne_zero
  · subst h; rw [select_one, select_one]
    exact ne_of_gt (lt_of_lt_of_le eps32_pos (le_add_of_nonneg_left (sqrt_nonneg_of_nonneg (ssq3_nonneg d0 d1 d2))))

/-- Multiplying by the reciprocal of the divisor is dividing by it. -/
theorem vecOf_eq_div (bit : BitVec 1) (d0 d1 d2 d : EReal) : vecOf bit d0 d1 d2 d = Ideal.div d (tmpOf bit d0 d1 d2) := by
  unfold vecOf Ideal.div
  rw [if_neg (tmpOf_ne_zero bit d0 d1 d2), if_neg (tmpOf_ne_zero bit d0 d1 d2), one32_eq, one_mul]

end Cert.Nbr

end
-- ==== Proof.HostSide.lean ====
/-
  The host operations around the kernel's one region, read index by index.

  Before the region the program builds, for each of the three coordinates, the array of the neighbours' coordinate:
  it takes that coordinate of every atom, views the result as a [batch, atom] table, and gathers from the table at
  the start indices made from the neighbour words (a negative word moved up by 2048, a trailing unit axis added).
  Reading the gather one operand axis at a time: the batch axis is a batching axis, so the operand's batch is the
  result's; the atom axis is the indexed one, so the operand's atom is the start index read signed and clamped into
  [0, 2047] — the neighbour's row.  Hence the gathered array at (b, a, n) is the atoms' coordinate at
  (b, row b a n).  It also transposes the atoms to [batch, coordinate, atom].  After the region it transposes the
  second result from [batch, coordinate, atom, slot] to [batch, atom, slot, coordinate].
-/
import proofs.«178371_j66245575573883_2_alg».proof.Proof.Gen.KernelIdeal.Frame
import proofs.«178371_j66245575573883_2_alg».proof.Proof.Spec
import Idealize.ShloMosaic.Lib.ValueIdx
import Idealize.ShloMosaic.Lib.Pipeline.Value
import Idealize.ShloMosaic.Lib.StableHlo.Run

noncomputable section

namespace Cert.Nbr.Host

open Idealize.ShloMosaic Idealize.ShloMosaic.ValueIdx Idealize.ShloMosaic.TcCoe
open Cert.KernelIdeal Cert.KernelIdeal.Gen

/-! ## The pure lemmas -/

/-- The batched gather of one coordinate plane, read at `(b, a, n)`: the plane at batch `b` and the neighbour's row.
    Operand axis 0 is a batching axis: no start, no offset, the result's batch coordinate.  Operand axis 1 is the
    indexed, collapsed axis: no batch coordinate, no offset, the start index at `(b, a, n, 0)` read signed and
    clamped to the axis' extent less the slice size, `2048 - 1`. -/
theorem gather_coord (x : S16x2048.Idx → EReal) (I : IVec S16x2048x512x1 32) (b : Fin 16) (a : Fin 2048) (n : Fin 512) :
    Idealize.ShloMosaic.Host.gather gather_S16x2048_S16x2048x512x1_S16x2048x512_n_1_0_0_1_3_11 x I (ix3 b a n)
      = x (ix2 b (Cert.Nbr.row I b a n)) := by
  unfold Idealize.ShloMosaic.Host.gather
  congr 1
  funext ax
  refine Fin.ext ?_
  match ax with
  | ⟨0, _⟩ =>
    show GatherDims.start gather_S16x2048_S16x2048x512x1_S16x2048x512_n_1_0_0_1_3_11 (ix3 b a n) I (0 : Fin 2)
        + GatherDims.batchCoord gather_S16x2048_S16x2048x512x1_S16x2048x512_n_1_0_0_1_3_11 (ix3 b a n) (0 : Fin 2)
        + GatherDims.offCoord gather_S16x2048_S16x2048x512x1_S16x2048x512_n_1_0_0_1_3_11 (ix3 b a n) (0 : Fin 2) = b.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ (gather_S16x2048_S16x2048x512x1_S16x2048x512_n_1_0_0_1_3_11).operandBatchingDims from List.mem_singleton.mpr rfl), Nat.add_zero, Nat.zero_add]
    rfl
  | ⟨1, _⟩ =>
    show GatherDims.start gather_S16x2048_S16x2048x512x1_S16x2048x512_n_1_0_0_1_3_11 (ix3 b a n) I (1 : Fin 2)
        + GatherDims.batchCoord gather_S16x2048_S16x2048x512x1_S16x2048x512_n_1_0_0_1_3_11 (ix3 b a n) (1 : Fin 2)
        + GatherDims.offCoord gather_S16x2048_S16x2048x512x1_S16x2048x512_n_1_0_0_1_3_11 (ix3 b a n) (1 : Fin 2)
        = min (I (ix4 b a n (0 : Fin 1))).toInt.toNat 2047
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S16x2048_S16x2048x512x1_S16x2048x512_n_1_0_0_1_3_11).startIndexMap from List.mem_singleton.mpr rfl)]
    have hsi : GatherDims.siIdx gather_S16x2048_S16x2048x512x1_S16x2048x512_n_1_0_0_1_3_11 (ix3 b a n)
        ⟨List.idxOf (1 : Fin 2) (gather_S16x2048_S16x2048x512x1_S16x2048x512_n_1_0_0_1_3_11).startIndexMap,
          List.idxOf_lt_length_iff.2 (List.mem_singleton.mpr rfl)⟩ = ix4 b a n (0 : Fin 1) := by
      funext d; refine Fin.ext ?_
      match d with
      | ⟨0, _⟩ => rfl
      | ⟨1, _⟩ => rfl
      | ⟨2, _⟩ => rfl
      | ⟨3, _⟩ => rfl
    rw [hsi]
    rfl

/-- The transpose after the region, read at `(b, a, n, k)`: result axes 0, 1, 2, 3 read source axes 0, 2, 3, 1. -/
theorem transpose_tail (X : S16x3x2048x512.Idx → EReal) (h : S16x3x2048x512.Transposes [0, 2, 3, 1] S16x2048x512x3)
    (b : Fin 16) (a : Fin 2048) (n : Fin 512) (k : Fin 3) :
    transpose S16x2048x512x3 [0, 2, 3, 1] X h (ix4 b a n k) = X (ix4 b k a n) :=
  transpose_apply [0, 2, 3, 1] X h (ix4 b a n k) (ix4 b k a n) (fun d =>
    match d with | ⟨0, _⟩ => rfl | ⟨1, _⟩ => rfl | ⟨2, _⟩ => rfl | ⟨3, _⟩ => rfl)

/-- The transpose of the atoms before the region, read at `(b, k, a)`: result axes 0, 1, 2 read source axes 0, 2, 1. -/
theorem transpose_atoms (A : S16x2048x3.Idx → EReal) (h : S16x2048x3.Transposes [0, 2, 1] S16x3x2048)
    (b : Fin 16) (k : Fin 3) (a : Fin 2048) :
    transpose S16x3x2048 [0, 2, 1] A h (ix3 b k a) = A (ix3 b a k) :=
  transpose_apply [0, 2, 1] A h (ix3 b k a) (ix3 b a k) (fun d =>
    match d with | ⟨0, _⟩ => rfl | ⟨1, _⟩ => rfl | ⟨2, _⟩ => rfl)

/-- Coordinate `k` of every atom, viewed as a [batch, atom] table, at `(b, r)`: the slice shifts the last axis by
    `k`, and dropping the unit axis keeps the row-major position `b * 2048 + r`. -/
theorem plane_apply (A : S16x2048x3.Idx → EReal) (off : Fin 3 → Nat) (k : Fin 3)
    (h0 : off 0 = 0) (h1 : off 1 = 0) (h2 : off 2 = k.val)
    (hs : S16x2048x3.Slices off S16x2048x1) (hc : S16x2048x1.ShapeCasts S16x2048) (b : Fin 16) (r : Fin 2048) :
    shapeCast S16x2048 (extractStridedSlice S16x2048x1 off A hs) hc (ix2 b r) = A (ix3 b r k) := by
  refine (shapeCast_apply _ hc (ix2 b r) (ix3 b r (0 : Fin 1)) ?_).trans ?_
  · rw [Shape.rowMajor_val_three, Shape.rowMajor_val_two]
    show (b.val * 2048 + r.val) * 1 + 0 = b.val * 2048 + r.val
    omega
  · refine extractStridedSlice_apply off A hs (ix3 b r (0 : Fin 1)) (ix3 b r k) (fun d => ?_)
    match d with
    | ⟨0, _⟩ => show b.val = off 0 + b.val; omega
    | ⟨1, _⟩ => show r.val = off 1 + r.val; omega
    | ⟨2, _⟩ => show k.val = off 2 + 0; omega

/-! ## The start indices -/

/-- The start indices the three gathers receive, from the neighbour words `J`: a negative word is moved up by 2048,
    and the array gains a trailing unit axis. -/
def startWords (J : IVec S16x2048x512 32) : IVec S16x2048x512x1 32 :=
  broadcastInDim S16x2048x512x1 ![0, 1, 2] bcast_S16x2048x512_S16x2048x512x1_0_1_2
    (select (cmpi .slt J (broadcastInDim S16x2048x512 ![] bcast_S_S16x2048x512 (constantI S_ 32 0#32)))
      (addi J (broadcastInDim S16x2048x512 ![] bcast_S_S16x2048x512 (constantI S_ 32 2048#32))) J)

/-- One start index: the neighbour word, plus 2048 when it is negative. -/
theorem startWords_apply (J : IVec S16x2048x512 32) (b : Fin 16) (a : Fin 2048) (n : Fin 512) :
    startWords J (ix4 b a n (0 : Fin 1))
      = Scalar.select (IntOp.cmpi .slt (J (ix3 b a n)) 0#32) (IntOp.addi (J (ix3 b a n)) 2048#32) (J (ix3 b a n)) := by
  unfold startWords
  refine (broadcastInDim_apply _ _ _ (ix4 b a n (0 : Fin 1)) (ix3 b a n) (fun d => ?_)).trans rfl
  match d with | ⟨0, _⟩ => rfl | ⟨1, _⟩ => rfl | ⟨2, _⟩ => rfl

/-! ## The buffers when the region is entered -/

variable (m : (ℓ : Loc Cert.KernelIdeal.nD Cert.KernelIdeal.τ Cert.KernelIdeal.sig) → Buf (Elt Ideal) ℓ) (c : Dev Cert.KernelIdeal.nD)

/-- The start indices of the first gather. -/
theorem V_v7 : (Gen.V m c main_v7 : S16x2048x512x1.Idx → BitVec 32) = startWords (m ((c : Thread nD τ).loc main_arg1)) := by
  show StableHlo.after hostOps0 (fun b => m (c, b)) (Proc.devRef .tc main_v7) = _
  after_results
  rfl
set_option maxHeartbeats 2000000 in
/-- The second gather's are the same array … -/
theorem V_v16 : (Gen.V m c main_v16 : S16x2048x512x1.Idx → BitVec 32) = Gen.V m c main_v7 := by
  rw [V_v7]
  show StableHlo.after hostOps0 (fun b => m (c, b)) (Proc.devRef .tc main_v16) = _
  after_results
  rfl
set_option maxHeartbeats 2000000 in
/-- … and so are the third's. -/
theorem V_v25 : (Gen.V m c main_v25 : S16x2048x512x1.Idx → BitVec 32) = Gen.V m c main_v7 := by
  rw [V_v7]
  show StableHlo.after hostOps0 (fun b => m (c, b)) (Proc.devRef .tc main_v25) = _
  after_results
  rfl

set_option maxHeartbeats 2000000 in
/-- The neighbours' first coordinate. -/
theorem V_v8_apply (b : Fin 16) (a : Fin 2048) (n : Fin 512) :
    (Gen.V m c main_v8 : S16x2048x512.Idx → EReal) (ix3 b a n)
      = m ((c : Thread nD τ).loc main_arg0) (ix3 b (Cert.Nbr.row (Gen.V m c main_v7) b a n) (0 : Fin 3)) := by
  have e : (Gen.V m c main_v8 : S16x2048x512.Idx → EReal)
      = Idealize.ShloMosaic.Host.gather gather_S16x2048_S16x2048x512x1_S16x2048x512_n_1_0_0_1_3_11
          (shapeCast S16x2048 (extractStridedSlice S16x2048x1 ![0, 0, 0] (m ((c : Thread nD τ).loc main_arg0))
            slices_S16x2048x3_S16x2048x1_0_0_0) shapeCasts_S16x2048x1_S16x2048)
          (startWords (m ((c : Thread nD τ).loc main_arg1))) := by
    show StableHlo.after hostOps0 (fun b => m (c, b)) (Proc.devRef .tc main_v8) = _
    after_results
    rfl
  rw [e, V_v7, gather_coord]
  exact plane_apply _ ![0, 0, 0] 0 rfl rfl rfl _ _ b _
set_option maxHeartbeats 2000000 in
/-- The neighbours' second coordinate. -/
theorem V_v17_apply (b : Fin 16) (a : Fin 2048) (n : Fin 512) :
    (Gen.V m c main_v17 : S16x2048x512.Idx → EReal) (ix3 b a n)
      = m ((c : Thread nD τ).loc main_arg0) (ix3 b (Cert.Nbr.row (Gen.V m c main_v7) b a n) (1 : Fin 3)) := by
  have e : (Gen.V m c main_v17 : S16x2048x512.Idx → EReal)
      = Idealize.ShloMosaic.Host.gather gather_S16x2048_S16x2048x512x1_S16x2048x512_n_1_0_0_1_3_11
          (shapeCast S16x2048 (extractStridedSlice S16x2048x1 ![0, 0, 1] (m ((c : Thread nD τ).loc main_arg0))
            slices_S16x2048x3_S16x2048x1_0_0_1) shapeCasts_S16x2048x1_S16x2048)
          (startWords (m ((c : Thread nD τ).loc main_arg1))) := by
    show StableHlo.after hostOps0 (fun b => m (c, b)) (Proc.devRef .tc main_v17) = _
    after_results
    rfl
  rw [e, V_v7, gather_coord]
  exact plane_apply _ ![0, 0, 1] 1 rfl rfl rfl _ _ b _
set_option maxHeartbeats 2000000 in
/-- The neighbours' third coordinate. -/
theorem V_v26_apply (b : Fin 16) (a : Fin 2048) (n : Fin 512) :
    (Gen.V m c main_v26 : S16x2048x512.Idx → EReal) (ix3 b a n)
      = m ((c : Thread nD τ).loc main_arg0) (ix3 b (Cert.Nbr.row (Gen.V m c main_v7) b a n) (2 : Fin 3)) := by
  have e : (Gen.V m c main_v26 : S16x2048x512.Idx → EReal)
      = Idealize.ShloMosaic.Host.gather gather_S16x2048_S16x2048x512x1_S16x2048x512_n_1_0_0_1_3_11
          (shapeCast S16x2048 (extractStridedSlice S16x2048x1 ![0, 0, 2] (m ((c : Thread nD τ).loc main_arg0))
            slices_S16x2048x3_S16x2048x1_0_0_2) shapeCasts_S16x2048x1_S16x2048)
          (startWords (m ((c : Thread nD τ).loc main_arg1))) := by
    show StableHlo.after hostOps0 (fun b => m (c, b)) (Proc.devRef .tc main_v26) = _
    after_results
    rfl
  rw [e, V_v7, gather_coord]
  exact plane_apply _ ![0, 0, 2] 2 rfl rfl rfl _ _ b _

set_option maxHeartbeats 2000000 in
/-- The atoms with the coordinate axis before the atom axis. -/
theorem V_v27_apply (b : Fin 16) (k : Fin 3) (a : Fin 2048) :
    (Gen.V m c main_v27 : S16x3x2048.Idx → EReal) (ix3 b k a) = m ((c : Thread nD τ).loc main_arg0) (ix3 b a k) := by
  have e : (Gen.V m c main_v27 : S16x3x2048.Idx → EReal)
      = transpose S16x3x2048 [0, 2, 1] (m ((c : Thread nD τ).loc main_arg0)) transposes_S16x2048x3_S16x3x2048_0_2_1 := by
    show StableHlo.after hostOps0 (fun b => m (c, b)) (Proc.devRef .tc main_v27) = _
    after_results
  rw [e]
  exact transpose_atoms _ _ b k a

end Cert.Nbr.Host

end
-- ==== Proof.Body.lean ====
/-
  The kernel body, element by element.

  The body reads five input blocks — the atoms' own coordinates `[1, coordinate, row]`, the gathered `x`, `y` and `z`
  coordinates `[1, row, slot]`, and the mask words `[1, row, slot]` — and fills two output blocks: the distances
  `[1, row, slot]` by one store of the whole block, and the scaled vectors `[1, coordinate, row, slot]` by three
  stores, one per coordinate plane.  Everything in between is pointwise arithmetic on `[512, 512]` values, reached from
  the blocks by reshapes that add or drop unit axes and, for an atom's own coordinate, by turning a row of 512 entries
  into a column and repeating it along the slots.

  Read at row `r` and slot `n`, each reshape only renames the index, each repeat reads the column at `r`, each store
  is read back in its own plane, and what is left is the specification's scalar functions of the three differences
  `d c = gathered c [r, n] - own c [r]` and the mask bit: the masked distance in the first block, and in plane `c` of
  the second the difference `d c` times the reciprocal of the divisor.
-/
import proofs.«178371_j66245575573883_2_alg».proof.Proof.Gen.KernelIdeal.Frame
import proofs.«178371_j66245575573883_2_alg».proof.Proof.Spec
import Idealize.ShloMosaic.Lib.ValueIdx
import Idealize.ShloMosaic.Lib.Pipeline.Value
import Idealize.ShloMosaic.Lib.ValueLayout
import Idealize.ShloMosaic.Lib.Pipeline.FrameBody

noncomputable section

namespace Cert.Nbr.Body

open Idealize.ShloMosaic Idealize.ShloMosaic.ValueIdx Cert.KernelIdeal

/-! ## Layout operations read at coordinates -/

section Layout
variable {α : Type}

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's arithmetic at one element

Each payload of the body is a pointwise expression in blocks reshaped between `[1, 512, 512]`, `[512, 512]` and
`[1, 1, 512, 512]`, and in an atom's coordinate row `[1, 1, 512]` turned into a column `[512, 1]` and repeated along
the slots; read at `(r, n)` every layout operation only renames the index. -/

/-- The first difference at `(r, n)`: the gathered coordinate minus the atom's own. -/
theorem pay6_at (v0 : Vec Ideal S1x1x512 .f32) (v9 : Vec Ideal S1x512x512 .f32) (r n : Fin 512) :
    Gen.k0_pay6 (F := Ideal) v0 v9 (ix2 r n) = v9 (ix3 (0 : Fin 1) r n) - v0 (ix3 (0 : Fin 1) (0 : Fin 1) r) := by
  unfold Gen.k0_pay6
  rw [subf_apply, shapeCast_1ab_ab_apply, broadcastTo_a1_ab_apply, shapeCast_a_a1_apply, shapeCast_11a_a_apply]

/-- The second difference at `(r, n)`. -/
theorem pay7_at (v3 : Vec Ideal S1x1x512 .f32) (v13 : Vec Ideal S1x512x512 .f32) (r n : Fin 512) :
    Gen.k0_pay7 (F := Ideal) v3 v13 (ix2 r n) = v13 (ix3 (0 : Fin 1) r n) - v3 (ix3 (0 : Fin 1) (0 : Fin 1) r) := by
  unfold Gen.k0_pay7
  rw [subf_apply, shapeCast_1ab_ab_apply, broadcastTo_a1_ab_apply, shapeCast_a_a1_apply, shapeCast_11a_a_apply]

/-- The third difference at `(r, n)`. -/
theorem pay8_at (v6 : Vec Ideal S1x1x512 .f32) (v17 : Vec Ideal S1x512x512 .f32) (r n : Fin 512) :
    Gen.k0_pay8 (F := Ideal) v6 v17 (ix2 r n) = v17 (ix3 (0 : Fin 1) r n) - v6 (ix3 (0 : Fin 1) (0 : Fin 1) r) := by
  unfold Gen.k0_pay8
  rw [subf_apply, shapeCast_1ab_ab_apply, broadcastTo_a1_ab_apply, shapeCast_a_a1_apply, shapeCast_11a_a_apply]

/-- The mask bit at `(r, n)`: the mask word is not zero. -/
theorem pay9_at (v27 : Vec Ideal S1x512x512 .i32) (r n : Fin 512) :
    Gen.k0_pay9 (F := Ideal) v27 (ix2 r n) = IntOp.cmpi .ne (v27 (ix3 (0 : Fin 1) r n)) 0#32 := by
  unfold Gen.k0_pay9
  show IntOp.cmpi .ne (shapeCast S512x512 v27 Gen.shapeCasts_S1x512x512_S512x512 (ix2 r n)) 0#32 = _
  rw [shapeCast_1ab_ab_apply]

/-- The masked distance at `(r, n)`: the square root of the three squares' sum where the mask bit is set, zero
    elsewhere. -/
theorem pay10_at (v0 v3 v6 : Vec Ideal S1x1x512 .f32) (v9 v13 v17 : Vec Ideal S1x512x512 .f32)
    (v27 : Vec Ideal S1x512x512 .i32) (r n : Fin 512) :
    Gen.k0_pay10 (F := Ideal) v0 v3 v6 v9 v13 v17 v27 (ix2 r n)
      = distOf (IntOp.cmpi .ne (v27 (ix3 (0 : Fin 1) r n)) 0#32)
          (v9 (ix3 (0 : Fin 1) r n) - v0 (ix3 (0 : Fin 1) (0 : Fin 1) r))
          (v13 (ix3 (0 : Fin 1) r n) - v3 (ix3 (0 : Fin 1) (0 : Fin 1) r))
          (v17 (ix3 (0 : Fin 1) r n) - v6 (ix3 (0 : Fin 1) (0 : Fin 1) r)) := by
  unfold Gen.k0_pay10
  rw [select_apply, pay9_at]
  show Scalar.select _ (Ideal.sqrt (Gen.k0_pay6 v0 v9 (ix2 r n) * Gen.k0_pay6 v0 v9 (ix2 r n)
      + Gen.k0_pay7 v3 v13 (ix2 r n) * Gen.k0_pay7 v3 v13 (ix2 r n)
      + Gen.k0_pay8 v6 v17 (ix2 r n) * Gen.k0_pay8 v6 v17 (ix2 r n))) (Ideal.ofBits .f32 0x00000000#32) = _
  rw [pay6_at, pay7_at, pay8_at]
  rfl

/-- The guard constant, everywhere. -/
theorem pay11_at (j : S512x512.Idx) : Gen.k0_pay11 (F := Ideal) j = eps32 := rfl

/-- The reciprocal of the divisor at an element: one over (the distance plus the guard where the mask bit is set,
    one elsewhere). -/
theorem pay1_at (v30 : IVec S512x512 1) (v32 v33 : FVec Ideal S512x512 .f32) (j : S512x512.Idx) :
    Gen.k0_pay1 (F := Ideal) v30 v32 v33 j = Ideal.div one32 (Scalar.select (v30 j) (v32 j + v33 j) one32) := rfl

/-- The distance block stored: the `[512, 512]` values under a leading unit axis. -/
theorem pay2_at (v32 : FVec Ideal S512x512 .f32) (u : Fin 1) (r n : Fin 512) :
    Gen.k0_pay2 (F := Ideal) v32 (ix3 u r n) = v32 (ix2 r n) := by
  unfold Gen.k0_pay2
  rw [shapeCast_ab_1ab_apply]

/-- A scaled component stored: the difference times the reciprocal of the divisor, under two leading unit axes. -/
theorem pay3_at (v12 : FVec Ideal S512x512 .f32) (v30 : IVec S512x512 1) (v32 v33 : FVec Ideal S512x512 .f32)
    (u v : Fin 1) (r n : Fin 512) :
    Gen.k0_pay3 (F := Ideal) v12 v30 v32 v33 (ix4 u v r n) = v12 (ix2 r n) * Gen.k0_pay1 v30 v32 v33 (ix2 r n) := by
  unfold Gen.k0_pay3
  rw [shapeCast_ab_11ab_apply, mulf_apply]

/-- The same for the second component. -/
theorem pay4_at (v16 : FVec Ideal S512x512 .f32) (v30 : IVec S512x512 1) (v32 v33 : FVec Ideal S512x512 .f32)
    (u v : Fin 1) (r n : Fin 512) :
    Gen.k0_pay4 (F := Ideal) v16 v30 v32 v33 (ix4 u v r n) = v16 (ix2 r n) * Gen.k0_pay1 v30 v32 v33 (ix2 r n) := by
  unfold Gen.k0_pay4
  rw [shapeCast_ab_11ab_apply, mulf_apply]

/-- The same for the third component. -/
theorem pay5_at (v20 : FVec Ideal S512x512 .f32) (v30 : IVec S512x512 1) (v32 v33 : FVec Ideal S512x512 .f32)
    (u v : Fin 1) (r n : Fin 512) :
    Gen.k0_pay5 (F := Ideal) v20 v30 v32 v33 (ix4 u v r n) = v20 (ix2 r n) * Gen.k0_pay1 v30 v32 v33 (ix2 r n) := by
  unfold Gen.k0_pay5
  rw [shapeCast_ab_11ab_apply, mulf_apply]

/-! ## The loads and the stores at one element -/

/-- The zero offsets of a whole-block access. -/
theorem zero3 : (![0, 0, 0] : Fin 3 → Nat) = fun _ => 0 := funext fun a => by fin_cases a <;> rfl

/-- A load of a whole `[1, 512, 512]` block reads the block. -/
theorem ld_whole {e : EltTy} (x : Vec Ideal S1x512x512 e) : View.ld x Gen.r0_3 = x :=
  View.ld_unit_zero zero3 Gen.inb_S1x512x512_S1x512x512_0_0_0 x

/-- The load of the atoms' block at coordinate 0 reads row `r`'s first coordinate. -/
theorem ld_row0 (x0 : Vec Ideal S1x3x512 .f32) (r : Fin 512) :
    View.ld x0 Gen.r0_0 (ix3 (0 : Fin 1) (0 : Fin 1) r) = x0 (ix3 (0 : Fin 1) (0 : Fin 3) r) :=
  congrArg x0 (funext fun a => Fin.ext (by
    match a with
    | ⟨0, _⟩ => rfl
    | ⟨1, _⟩ => rfl
    | ⟨2, _⟩ => show 0 + 1 * r.val = r.val; omega))
/-- … at coordinate 1 … -/
theorem ld_row1 (x0 : Vec Ideal S1x3x512 .f32) (r : Fin 512) :
    View.ld x0 Gen.r0_1 (ix3 (0 : Fin 1) (0 : Fin 1) r) = x0 (ix3 (0 : Fin 1) (1 : Fin 3) r) :=
  congrArg x0 (funext fun a => Fin.ext (by
    match a with
    | ⟨0, _⟩ => rfl
    | ⟨1, _⟩ => rfl
    | ⟨2, _⟩ => show 0 + 1 * r.val = r.val; omega))
/-- … and at coordinate 2. -/
theorem ld_row2 (x0 : Vec Ideal S1x3x512 .f32) (r : Fin 512) :
    View.ld x0 Gen.r0_2 (ix3 (0 : Fin 1) (0 : Fin 1) r) = x0 (ix3 (0 : Fin 1) (2 : Fin 3) r) :=
  congrArg x0 (funext fun a => Fin.ext (by
    match a with
    | ⟨0, _⟩ => rfl
    | ⟨1, _⟩ => rfl
    | ⟨2, _⟩ => show 0 + 1 * r.val = r.val; omega))

/-- The three stores' rectangles are the coordinate planes of the vectors' block: plane `k` at `(0, 0, r, n)` is the
    block at `(0, k, r, n)`. -/
theorem emb_plane0 (r n : Fin 512) :
    Gen.r0_4.emb (ix4 (0 : Fin 1) (0 : Fin 1) r n) = ix4 (0 : Fin 1) (0 : Fin 3) r n :=
  funext fun a => Fin.ext (by
    match a with
    | ⟨0, _⟩ => rfl
    | ⟨1, _⟩ => rfl
    | ⟨2, _⟩ => show 0 + 1 * r.val = r.val; omega
    | ⟨3, _⟩ => show 0 + 1 * n.val = n.val; omega)
/-- Plane 1. -/
theorem emb_plane1 (r n : Fin 512) :
    Gen.r0_5.emb (ix4 (0 : Fin 1) (0 : Fin 1) r n) = ix4 (0 : Fin 1) (1 : Fin 3) r n :=
  funext fun a => Fin.ext (by
    match a with
    | ⟨0, _⟩ => rfl
    | ⟨1, _⟩ => rfl
    | ⟨2, _⟩ => show 0 + 1 * r.val = r.val; omega
    | ⟨3, _⟩ => show 0 + 1 * n.val = n.val; omega)
/-- Plane 2. -/
theorem emb_plane2 (r n : Fin 512) :
    Gen.r0_6.emb (ix4 (0 : Fin 1) (0 : Fin 1) r n) = ix4 (0 : Fin 1) (2 : Fin 3) r n :=
  funext fun a => Fin.ext (by
    match a with
    | ⟨0, _⟩ => rfl
    | ⟨1, _⟩ => rfl
    | ⟨2, _⟩ => show 0 + 1 * r.val = r.val; omega
    | ⟨3, _⟩ => show 0 + 1 * n.val = n.val; omega)

/-- An index of plane 0 or 1 is not under the last store (plane 2) … -/
theorem not_mem_plane2 (k : Fin 3) (hk : k.val < 2) (r n : Fin 512) :
    ix4 (0 : Fin 1) k r n ∉ Gen.r0_6.set := fun h => by
  have h1 : 2 ≤ k.val := (Rect.mem_set_unit.mp h 1).1
  omega
/-- … and an index of plane 0 is not under the middle store (plane 1). -/
theorem not_mem_plane1 (r n : Fin 512) : ix4 (0 : Fin 1) (0 : Fin 3) r n ∉ Gen.r0_5.set := fun h => by
  have h1 : 1 ≤ 0 := (Rect.mem_set_unit.mp h 1).1
  omega

/-- What the three stores leave, read in each plane: the plane's own payload. -/
theorem stores_at2 (p0 p1 p2 : Vec Ideal S1x1x512x512 .f32) (r n : Fin 512) :
    View.canon ([⟨Gen.r0_6, p0⟩, ⟨Gen.r0_5, p1⟩, ⟨Gen.r0_4, p2⟩] : List (View.Piece (Elt Ideal) S1x3x512x512 .f32))
      (ix4 (0 : Fin 1) (2 : Fin 3) r n) = p0 (ix4 (0 : Fin 1) (0 : Fin 1) r n) := by
  rw [← emb_plane2 r n]
  exact View.canon_cons_emb Gen.r0_6 p0 _ _
/-- In plane 1 the last store does not reach the index; the middle one does. -/
theorem stores_at1 (p0 p1 p2 : Vec Ideal S1x1x512x512 .f32) (r n : Fin 512) :
    View.canon ([⟨Gen.r0_6, p0⟩, ⟨Gen.r0_5, p1⟩, ⟨Gen.r0_4, p2⟩] : List (View.Piece (Elt Ideal) S1x3x512x512 .f32))
      (ix4 (0 : Fin 1) (1 : Fin 3) r n) = p1 (ix4 (0 : Fin 1) (0 : Fin 1) r n) := by
  rw [View.canon_cons_of_not_mem (⟨Gen.r0_6, p0⟩ : View.Piece (Elt Ideal) S1x3x512x512 .f32)
      [⟨Gen.r0_5, p1⟩, ⟨Gen.r0_4, p2⟩] (not_mem_plane2 1 (by decide) r n), ← emb_plane1 r n]
  exact View.canon_cons_emb Gen.r0_5 p1 _ _
/-- In plane 0 neither later store reaches the index; the first one does. -/
theorem stores_at0 (p0 p1 p2 : Vec Ideal S1x1x512x512 .f32) (r n : Fin 512) :
    View.canon ([⟨Gen.r0_6, p0⟩, ⟨Gen.r0_5, p1⟩, ⟨Gen.r0_4, p2⟩] : List (View.Piece (Elt Ideal) S1x3x512x512 .f32))
      (ix4 (0 : Fin 1) (0 : Fin 3) r n) = p2 (ix4 (0 : Fin 1) (0 : Fin 1) r n) := by
  rw [View.canon_cons_of_not_mem (⟨Gen.r0_6, p0⟩ : View.Piece (Elt Ideal) S1x3x512x512 .f32)
      [⟨Gen.r0_5, p1⟩, ⟨Gen.r0_4, p2⟩] (not_mem_plane2 0 (by decide) r n),
    View.canon_cons_of_not_mem (⟨Gen.r0_5, p1⟩ : View.Piece (Elt Ideal) S1x3x512x512 .f32)
      [⟨Gen.r0_4, p2⟩] (not_mem_plane1 r n), ← emb_plane0 r n]
  exact View.canon_cons_emb Gen.r0_4 p2 _ _

/-! ## The two output blocks at one element -/

section Blocks
variable (x0 : Vec Ideal S1x3x512 .f32) (x1 x2 x3 : Vec Ideal S1x512x512 .f32) (x4 : Vec Ideal S1x512x512 .i32)
  (r n : Fin 512)

/-- The distances' block at `(0, r, n)` is the masked distance of the three differences there. -/
theorem out5_at :
    Gen.out0_5 (F := Ideal) x0 x1 x2 x3 x4 (ix3 (0 : Fin 1) r n)
      = distOf (IntOp.cmpi .ne (x4 (ix3 (0 : Fin 1) r n)) 0#32)
          (x1 (ix3 (0 : Fin 1) r n) - x0 (ix3 (0 : Fin 1) (0 : Fin 3) r))
          (x2 (ix3 (0 : Fin 1) r n) - x0 (ix3 (0 : Fin 1) (1 : Fin 3) r))
          (x3 (ix3 (0 : Fin 1) r n) - x0 (ix3 (0 : Fin 1) (2 : Fin 3) r)) := by
  unfold Gen.out0_5
  rw [View.canon_unit_zero zero3, pay2_at, pay10_at, ld_whole, ld_whole, ld_whole, ld_whole, ld_row0, ld_row1, ld_row2]

/-- The vectors' block in plane 0 at `(r, n)`: the first difference times the reciprocal of the divisor. -/
theorem out6_at0 :
    Gen.out0_6 (F := Ideal) x0 x1 x2 x3 x4 (ix4 (0 : Fin 1) (0 : Fin 3) r n)
      = vecOf (IntOp.cmpi .ne (x4 (ix3 (0 : Fin 1) r n)) 0#32)
          (x1 (ix3 (0 : Fin 1) r n) - x0 (ix3 (0 : Fin 1) (0 : Fin 3) r))
          (x2 (ix3 (0 : Fin 1) r n) - x0 (ix3 (0 : Fin 1) (1 : Fin 3) r))
          (x3 (ix3 (0 : Fin 1) r n) - x0 (ix3 (0 : Fin 1) (2 : Fin 3) r))
          (x1 (ix3 (0 : Fin 1) r n) - x0 (ix3 (0 : Fin 1) (0 : Fin 3) r)) := by
  unfold Gen.out0_6
  rw [stores_at0, pay3_at, pay1_at, pay6_at, pay9_at, pay10_at, pay11_at,
    ld_whole, ld_whole, ld_whole, ld_whole, ld_row0, ld_row1, ld_row2]
  rfl

/-- In plane 1: the second difference times the reciprocal of the divisor. -/
theorem out6_at1 :
    Gen.out0_6 (F := Ideal) x0 x1 x2 x3 x4 (ix4 (0 : Fin 1) (1 : Fin 3) r n)
      = vecOf (IntOp.cmpi .ne (x4 (ix3 (0 : Fin 1) r n)) 0#32)
          (x1 (ix3 (0 : Fin 1) r n) - x0 (ix3 (0 : Fin 1) (0 : Fin 3) r))
          (x2 (ix3 (0 : Fin 1) r n) - x0 (ix3 (0 : Fin 1) (1 : Fin 3) r))
          (x3 (ix3 (0 : Fin 1) r n) - x0 (ix3 (0 : Fin 1) (2 : Fin 3) r))
          (x2 (ix3 (0 : Fin 1) r n) - x0 (ix3 (0 : Fin 1) (1 : Fin 3) r)) := by
  unfold Gen.out0_6
  rw [stores_at1, pay4_at, pay1_at, pay7_at, pay9_at, pay10_at, pay11_at,
    ld_whole, ld_whole, ld_whole, ld_whole, ld_row0, ld_row1, ld_row2]
  rfl

/-- In plane 2: the third difference times the reciprocal of the divisor. -/
theorem out6_at2 :
    Gen.out0_6 (F := Ideal) x0 x1 x2 x3 x4 (ix4 (0 : Fin 1) (2 : Fin 3) r n)
      = vecOf (IntOp.cmpi .ne (x4 (ix3 (0 : Fin 1) r n)) 0#32)
          (x1 (ix3 (0 : Fin 1) r n) - x0 (ix3 (0 : Fin 1) (0 : Fin 3) r))
          (x2 (ix3 (0 : Fin 1) r n) - x0 (ix3 (0 : Fin 1) (1 : Fin 3) r))
          (x3 (ix3 (0 : Fin 1) r n) - x0 (ix3 (0 : Fin 1) (2 : Fin 3) r))
          (x3 (ix3 (0 : Fin 1) r n) - x0 (ix3 (0 : Fin 1) (2 : Fin 3) r)) := by
  unfold Gen.out0_6
  rw [stores_at2, pay5_at, pay1_at, pay8_at, pay9_at, pay10_at, pay11_at,
    ld_whole, ld_whole, ld_whole, ld_whole, ld_row0, ld_row1, ld_row2]
  rfl

end Blocks

end Cert.Nbr.Body

end
-- ==== Proof.KernelValue.lean ====
/-
  The kernel's two float results, read off its run.

  The Pallas region walks a 16 × 4 grid: point `(b, q)` handles batch `b` and atoms `512 q … 512 q + 511`.  At a
  point, the body's distances block [1, 512, 512] and vectors block [1, 3, 512, 512] are the scalar functions of
  Spec of the input blocks' elements; an element of a block sits in its whole array at the block index times the
  block size plus the coordinate inside the block, so every input element the body reads is the whole input array
  at the output element's own batch, atom and slot.  The input arrays are what the program's earlier operations
  made of the arguments: the gathered x, y, z coordinates of each neighbour and the atoms' coordinates with the
  coordinate axis moved to the middle.  The blocks tile both output arrays, so each array ends holding the masked
  distances, respectively the scaled differences laid out coordinate-major; one last operation moves the
  coordinate axis to the end.
-/
import proofs.«178371_j66245575573883_2_alg».proof.Proof.Gen.KernelIdeal.Frame
import proofs.«178371_j66245575573883_2_alg».proof.Proof.Spec
import proofs.«178371_j66245575573883_2_alg».proof.Proof.Body
import proofs.«178371_j66245575573883_2_alg».proof.Proof.HostSide
import Idealize.ShloMosaic.Lib.ValueIdx
import Idealize.ShloMosaic.Lib.Pipeline.Value
import Idealize.ShloMosaic.Lib.StableHlo.Run

set_option maxRecDepth 16384

noncomputable section

open Idealize.ShloMosaic Idealize.ShloMosaic.TcCoe Idealize.ShloMosaic.ValueIdx Idealize.SL.Sem

namespace Cert.Nbr.KernelValue
open Cert.KernelIdeal Cert.KernelIdeal.Gen Idealize.ShloMosaic.Pipeline

variable (m : (ℓ : Loc nD τ sig) → Buf (Elt Ideal) ℓ) (ρ : Dev nD → PrngReg)

/-- The atoms, the start indices and the mask as the region finds them. -/
abbrev At (c : Dev nD) : SA.Idx → EReal := m ((c : Thread nD τ).loc main_arg0)
abbrev St (c : Dev nD) : IVec SI 32 := V m c main_v7
abbrev Mk (c : Dev nD) : IVec SN 32 := m ((c : Thread nD τ).loc main_arg2)

/-- The printed index maps, decided once over the 64 grid points: every [1,512,512] window moves with the
    distances' window; the atoms' window takes its batch and its row block from it. -/
theorem idx_facts : ∀ t : Fin cfg0.N,
    win0_1.index t (0 : Fin 3) = win0_5.index t (0 : Fin 3) ∧ win0_1.index t (1 : Fin 3) = win0_5.index t (1 : Fin 3) ∧ win0_1.index t (2 : Fin 3) = 0
    ∧ win0_2.index t (0 : Fin 3) = win0_5.index t (0 : Fin 3) ∧ win0_2.index t (1 : Fin 3) = win0_5.index t (1 : Fin 3) ∧ win0_2.index t (2 : Fin 3) = 0
    ∧ win0_3.index t (0 : Fin 3) = win0_5.index t (0 : Fin 3) ∧ win0_3.index t (1 : Fin 3) = win0_5.index t (1 : Fin 3) ∧ win0_3.index t (2 : Fin 3) = 0
    ∧ win0_4.index t (0 : Fin 3) = win0_5.index t (0 : Fin 3) ∧ win0_4.index t (1 : Fin 3) = win0_5.index t (1 : Fin 3) ∧ win0_4.index t (2 : Fin 3) = 0
    ∧ win0_0.index t (0 : Fin 3) = win0_5.index t (0 : Fin 3) ∧ win0_0.index t (1 : Fin 3) = 0 ∧ win0_0.index t (2 : Fin 3) = win0_5.index t (1 : Fin 3)
    ∧ win0_6.index t (0 : Fin 4) = win0_5.index t (0 : Fin 3) ∧ win0_6.index t (1 : Fin 4) = 0 ∧ win0_6.index t (2 : Fin 4) = win0_5.index t (1 : Fin 3) ∧ win0_6.index t (3 : Fin 4) = 0
    ∧ win0_5.index t (0 : Fin 3) ≤ 15 ∧ win0_5.index t (1 : Fin 3) ≤ 3 ∧ win0_5.index t (2 : Fin 3) = 0 :=
  (by decide +kernel : ∀ t : Fin grid0.N, _)

/-- Every block of the distances' array is some point's. -/
theorem idx_onto : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

variable (x0 : Vec Ideal S1x3x512 .f32) (x1 x2 x3 : Vec Ideal S1x512x512 .f32) (x4 : Vec Ideal S1x512x512 .i32)

/-- The distances' block at any of its indices. -/
theorem out5_apply (y : S1x512x512.Idx) : out0_5 (F := Ideal) x0 x1 x2 x3 x4 y =
    Cert.Nbr.distOf (IntOp.cmpi .ne (x4 y) 0#32) (x1 y - x0 (ix3 (0 : Fin 1) (0 : Fin 3) (y 1))) (x2 y - x0 (ix3 (0 : Fin 1) (1 : Fin 3) (y 1))) (x3 y - x0 (ix3 (0 : Fin 1) (2 : Fin 3) (y 1))) := by
  obtain ⟨p, r, n, rfl⟩ : ∃ (p : Fin 1) (r : Fin 512) (n : Fin 512), y = ix3 p r n := ⟨y 0, y 1, y 2, eq_ix3 y⟩
  obtain rfl : p = 0 := Subsingleton.elim _ _
  exact Cert.Nbr.Body.out5_at x0 x1 x2 x3 x4 r n

/-- WHAT POINT `t` WRITES BACK into the distances' array is block `t` of the masked distances. -/
theorem flushed5_eq (c : Dev nD) (t : Fin cfg0.N) :
    (dats m 0 c).flushed 5 t = ((cfg0.win 5).blk t).view.read (Elt Ideal) (Cert.Nbr.distances (At m c) (St m c) (Mk m c)) := by
  show (cfg0.win 5).cut (grid0.coords t) ((dats m 0 c).after 5 t) = _
  rw [after0_5]
  funext y
  show out0_5 (iblk m c 0 t) (iblk m c 1 t) (iblk m c 2 t) (iblk m c 3 t) (iblk m c 4 t) y = Cert.Nbr.distances (At m c) (St m c) (Mk m c) (((cfg0.win 5).blk t).view.emb y)
  refine (out5_apply (iblk m c 0 t) (iblk m c 1 t) (iblk m c 2 t) (iblk m c 3 t) (iblk m c 4 t) y).trans ?_
  obtain ⟨e10, e11, e12, e20, e21, e22, e30, e31, e32, e40, e41, e42, e00, e01, e02, e60, e61, e62, e63, b0, b1, b2⟩ := idx_facts t
  have hy0 : (y 0).val < 1 := (y 0).isLt
  have hy1 : (y 1).val < 512 := (y 1).isLt
  have hy2 : (y 2).val < 512 := (y 2).isLt
  -- the element's place in the whole arrays: batch, atom, slot
  let b : Fin 16 := ⟨win0_5.index t (0 : Fin 3), by omega⟩
  let a : Fin 2048 := ⟨win0_5.index t (1 : Fin 3) * 512 + (y 1).val, by omega⟩
  let n : Fin 512 := ⟨(y 2).val, hy2⟩
  have E5 : ((cfg0.win 5).blk t).view.emb y = ix3 b a n := by
    funext d; apply Fin.ext
    match d with
    | ⟨0, _⟩ => show win0_5.index t (0 : Fin 3) * 1 + 1 * (y 0).val = win0_5.index t (0 : Fin 3); omega
    | ⟨1, _⟩ => show win0_5.index t (1 : Fin 3) * 512 + 1 * (y 1).val = win0_5.index t (1 : Fin 3) * 512 + (y 1).val; omega
    | ⟨2, _⟩ => show win0_5.index t (2 : Fin 3) * 512 + 1 * (y 2).val = (y 2).val; omega
  have E1 : ((cfg0.win 1).blk t).view.emb y = ix3 b a n := by
    funext d; apply Fin.ext
    match d with
    | ⟨0, _⟩ => show win0_1.index t (0 : Fin 3) * 1 + 1 * (y 0).val = win0_5.index t (0 : Fin 3); omega
    | ⟨1, _⟩ => show win0_1.index t (1 : Fin 3) * 512 + 1 * (y 1).val = win0_5.index t (1 : Fin 3) * 512 + (y 1).val; omega
    | ⟨2, _⟩ => show win0_1.index t (2 : Fin 3) * 512 + 1 * (y 2).val = (y 2).val; omega
  have E2 : ((cfg0.win 2).blk t).view.emb y = ix3 b a n := by
    funext d; apply Fin.ext
    match d with
    | ⟨0, _⟩ => show win0_2.index t (0 : Fin 3) * 1 + 1 * (y 0).val = win0_5.index t (0 : Fin 3); omega
    | ⟨1, _⟩ => show win0_2.index t (1 : Fin 3) * 512 + 1 * (y 1).val = win0_5.index t (1 : Fin 3) * 512 + (y 1).val; omega
    | ⟨2, _⟩ => show win0_2.index t (2 : Fin 3) * 512 + 1 * (y 2).val = (y 2).val; omega
  have E3 : ((cfg0.win 3).blk t).view.emb y = ix3 b a n := by
    funext d; apply Fin.ext
    match d with
    | ⟨0, _⟩ => show win0_3.index t (0 : Fin 3) * 1 + 1 * (y 0).val = win0_5.index t (0 : Fin 3); omega
    | ⟨1, _⟩ => show win0_3.index t (1 : Fin 3) * 512 + 1 * (y 1).val = win0_5.index t (1 : Fin 3) * 512 + (y 1).val; omega
    | ⟨2, _⟩ => show win0_3.index t (2 : Fin 3) * 512 + 1 * (y 2).val = (y 2).val; omega
  have E4 : ((cfg0.win 4).blk t).view.emb y = ix3 b a n := by
    funext d; apply Fin.ext
    match d with
    | ⟨0, _⟩ => show win0_4.index t (0 : Fin 3) * 1 + 1 * (y 0).val = win0_5.index t (0 : Fin 3); omega
    | ⟨1, _⟩ => show win0_4.index t (1 : Fin 3) * 512 + 1 * (y 1).val = win0_5.index t (1 : Fin 3) * 512 + (y 1).val; omega
    | ⟨2, _⟩ => show win0_4.index t (2 : Fin 3) * 512 + 1 * (y 2).val = (y 2).val; omega
  have E0 : ∀ k : Fin 3, ((cfg0.win 0).blk t).view.emb (ix3 (0 : Fin 1) k (y 1)) = ix3 b k a := by
    intro k
    have hk : k.val < 3 := k.isLt
    funext d; apply Fin.ext
    match d with
    | ⟨0, _⟩ => show win0_0.index t (0 : Fin 3) * 1 + 1 * 0 = win0_5.index t (0 : Fin 3); omega
    | ⟨1, _⟩ => show win0_0.index t (1 : Fin 3) * 3 + 1 * k.val = k.val; omega
    | ⟨2, _⟩ => show win0_0.index t (2 : Fin 3) * 512 + 1 * (y 1).val = win0_5.index t (1 : Fin 3) * 512 + (y 1).val; omega
  have H1 : iblk m c 1 t y = V m c main_v8 (ix3 b a n) := by
    show V m c main_v8 (((cfg0.win 1).blk t).view.emb y) = _; rw [E1]
  have H2 : iblk m c 2 t y = V m c main_v17 (ix3 b a n) := by
    show V m c main_v17 (((cfg0.win 2).blk t).view.emb y) = _; rw [E2]
  have H3 : iblk m c 3 t y = V m c main_v26 (ix3 b a n) := by
    show V m c main_v26 (((cfg0.win 3).blk t).view.emb y) = _; rw [E3]
  have H4 : iblk m c 4 t y = Mk m c (ix3 b a n) := by
    show V m c main_arg2 (((cfg0.win 4).blk t).view.emb y) = _; rw [E4, V_main_arg2]
  have H0 : ∀ k : Fin 3, iblk m c 0 t (ix3 (0 : Fin 1) k (y 1)) = V m c main_v27 (ix3 b k a) := by
    intro k
    show V m c main_v27 (((cfg0.win 0).blk t).view.emb (ix3 (0 : Fin 1) k (y 1))) = _; rw [E0 k]
  rw [H1, H2, H3, H4, H0 0, H0 1, H0 2, E5, Cert.Nbr.Host.V_v8_apply, Cert.Nbr.Host.V_v17_apply, Cert.Nbr.Host.V_v26_apply,
    Cert.Nbr.Host.V_v27_apply, Cert.Nbr.Host.V_v27_apply, Cert.Nbr.Host.V_v27_apply]
  rfl

/-- An index of the distances' array is in point `t`'s block iff each coordinate is in the block's range. -/
theorem mem_blk5 (t : Fin cfg0.N) (i : S16x2048x512.Idx) :
    i ∈ ((cfg0.win 5).blk t).view.set ↔ ∀ a : Fin 3, win0_5.index t a * S1x512x512.size a ≤ (i a).val ∧ (i a).val < win0_5.index t a * S1x512x512.size a + S1x512x512.size a := by
  show i ∈ ((View.whole main_v28_0).slice (win0_5.rect t)).set ↔ _
  rw [View.set_slice_whole, Rect.mem_set_unit]
  exact Iff.rfl

/-- The blocks tile the distances' array: index `(b, a, n)` is in the block of the point `(b, a / 512)`. -/
theorem cover5 (i : S16x2048x512.Idx) : ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 512 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 512 ≤ (i 2).val ∧ (i 2).val < win0_5.index t (2 : Fin 3) * 512 + 512; omega

/-- THE DISTANCES' ARRAY after the run: the masked distance at every index. -/
theorem final5 (c : Dev nD) : (dats m 0 c).arrAt 5 cfg0.N = Cert.Nbr.distances (At m c) (St m c) (Mk m c) :=
  (dats m 0 c).arrAt_eq_of_cover 5 _ (fun t _ => flushed5_eq m c t) cover5

/-! ## The scaled vectors' window: blocks [1, 3, 512, 512] of the [16, 3, 2048, 512] array -/

/-- The region's second result, coordinate-major: `[batch, coordinate, atom, slot]`. -/
def vecT (A : SA.Idx → EReal) (I : IVec SI 32) (M : IVec SN 32) : S16x3x2048x512.Idx → EReal :=
  fun i => Cert.Nbr.vec A I M (i 0) (i 2) (i 3) (i 1)

/-- The vectors' block at coordinate `k`, row `r`, slot `n`: the three per-coordinate statements as one. -/
theorem out6_at (r n : Fin 512) (k : Fin 3) : out0_6 (F := Ideal) x0 x1 x2 x3 x4 (ix4 (0 : Fin 1) k r n) =
    Cert.Nbr.vecOf (IntOp.cmpi .ne (x4 (ix3 (0 : Fin 1) r n)) 0#32) (x1 (ix3 (0 : Fin 1) r n) - x0 (ix3 (0 : Fin 1) (0 : Fin 3) r)) (x2 (ix3 (0 : Fin 1) r n) - x0 (ix3 (0 : Fin 1) (1 : Fin 3) r)) (x3 (ix3 (0 : Fin 1) r n) - x0 (ix3 (0 : Fin 1) (2 : Fin 3) r))
      ((![x1, x2, x3] k) (ix3 (0 : Fin 1) r n) - x0 (ix3 (0 : Fin 1) k r)) := by
  match k with
  | ⟨0, _⟩ => exact Cert.Nbr.Body.out6_at0 x0 x1 x2 x3 x4 r n
  | ⟨1, _⟩ => exact Cert.Nbr.Body.out6_at1 x0 x1 x2 x3 x4 r n
  | ⟨2, _⟩ => exact Cert.Nbr.Body.out6_at2 x0 x1 x2 x3 x4 r n

/-- The vectors' block at any of its indices. -/
theorem out6_apply (y : S1x3x512x512.Idx) : out0_6 (F := Ideal) x0 x1 x2 x3 x4 y =
    Cert.Nbr.vecOf (IntOp.cmpi .ne (x4 (ix3 (0 : Fin 1) (y 2) (y 3))) 0#32)
      (x1 (ix3 (0 : Fin 1) (y 2) (y 3)) - x0 (ix3 (0 : Fin 1) (0 : Fin 3) (y 2))) (x2 (ix3 (0 : Fin 1) (y 2) (y 3)) - x0 (ix3 (0 : Fin 1) (1 : Fin 3) (y 2)))
      (x3 (ix3 (0 : Fin 1) (y 2) (y 3)) - x0 (ix3 (0 : Fin 1) (2 : Fin 3) (y 2)))
      ((![x1, x2, x3] (y 1)) (ix3 (0 : Fin 1) (y 2) (y 3)) - x0 (ix3 (0 : Fin 1) (y 1) (y 2))) := by
  obtain ⟨p, k, r, n, rfl⟩ : ∃ (p : Fin 1) (k : Fin 3) (r : Fin 512) (n : Fin 512), y = ix4 p k r n := ⟨y 0, y 1, y 2, y 3, eq_ix4 y⟩
  obtain rfl : p = 0 := Subsingleton.elim _ _
  exact out6_at x0 x1 x2 x3 x4 r n k

theorem mem_blk6 (t : Fin cfg0.N) (i : S16x3x2048x512.Idx) :
    i ∈ ((cfg0.win 6).blk t).view.set ↔ ∀ a : Fin 4, win0_6.index t a * S1x3x512x512.size a ≤ (i a).val ∧ (i a).val < win0_6.index t a * S1x3x512x512.size a + S1x3x512x512.size a := by
  show i ∈ ((View.whole main_v28_1).slice (win0_6.rect t)).set ↔ _
  rw [View.set_slice_whole, Rect.mem_set_unit]
  exact Iff.rfl

theorem cover6 (i : S16x3x2048x512.Idx) : ∃ t : Fin cfg0.N, (cfg0.win 6).flush t = true ∧ i ∈ ((cfg0.win 6).blk t).view.set := by
  have hi0 : (i 0).val < 16 := (i 0).isLt
  have hi1 : (i 1).val < 3 := (i 1).isLt
  have hi2 : (i 2).val < 2048 := (i 2).isLt
  have hi3 : (i 3).val < 512 := (i 3).isLt
  obtain ⟨t, ht⟩ := idx_onto ⟨(i 0).val, hi0⟩ ⟨(i 2).val / 512, by omega⟩
  have q0 : win0_5.index t (0 : Fin 3) = (i 0).val := congrFun ht 0
  have q1 : win0_5.index t (1 : Fin 3) = (i 2).val / 512 := congrFun ht 1
  obtain ⟨e10, e11, e12, e20, e21, e22, e30, e31, e32, e40, e41, e42, e00, e01, e02, e60, e61, e62, e63, b0, b1, b2⟩ := idx_facts t
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 3 ≤ (i 1).val ∧ (i 1).val < win0_6.index t (1 : Fin 4) * 3 + 3; omega
  | ⟨2, _⟩ => show win0_6.index t (2 : Fin 4) * 512 ≤ (i 2).val ∧ (i 2).val < win0_6.index t (2 : Fin 4) * 512 + 512; omega
  | ⟨3, _⟩ => show win0_6.index t (3 : Fin 4) * 512 ≤ (i 3).val ∧ (i 3).val < win0_6.index t (3 : Fin 4) * 512 + 512; omega

set_option maxHeartbeats 1600000 in
/-- WHAT POINT `t` WRITES BACK into the vectors' array is block `t` of the scaled differences, coordinate-major. -/
theorem flushed6_eq (c : Dev nD) (t : Fin cfg0.N) :
    (dats m 0 c).flushed 6 t = ((cfg0.win 6).blk t).view.read (Elt Ideal) (vecT (At m c) (St m c) (Mk m c)) := by
  show (cfg0.win 6).cut (grid0.coords t) ((dats m 0 c).after 6 t) = _
  rw [after0_6]
  funext y
  show out0_6 (iblk m c 0 t) (iblk m c 1 t) (iblk m c 2 t) (iblk m c 3 t) (iblk m c 4 t) y = vecT (At m c) (St m c) (Mk m c) (((cfg0.win 6).blk t).view.emb y)
  refine (out6_apply (iblk m c 0 t) (iblk m c 1 t) (iblk m c 2 t) (iblk m c 3 t) (iblk m c 4 t) y).trans ?_
  obtain ⟨e10, e11, e12, e20, e21, e22, e30, e31, e32, e40, e41, e42, e00, e01, e02, e60, e61, e62, e63, b0, b1, b2⟩ := idx_facts t
  have hy0 : (y 0).val < 1 := (y 0).isLt
  have hy1 : (y 1).val < 3 := (y 1).isLt
  have hy2 : (y 2).val < 512 := (y 2).isLt
  have hy3 : (y 3).val < 512 := (y 3).isLt
  let b : Fin 16 := ⟨win0_5.index t (0 : Fin 3), by omega⟩
  let k : Fin 3 := ⟨(y 1).val, hy1⟩
  let a : Fin 2048 := ⟨win0_5.index t (1 : Fin 3) * 512 + (y 2).val, by omega⟩
  let n : Fin 512 := ⟨(y 3).val, hy3⟩
  have E6 : ((cfg0.win 6).blk t).view.emb y = ix4 b k a n := by
    funext d; apply Fin.ext
    match d with
    | ⟨0, _⟩ => show win0_6.index t (0 : Fin 4) * 1 + 1 * (y 0).val = win0_5.index t (0 : Fin 3); omega
    | ⟨1, _⟩ => show win0_6.index t (1 : Fin 4) * 3 + 1 * (y 1).val = (y 1).val; omega
    | ⟨2, _⟩ => show win0_6.index t (2 : Fin 4) * 512 + 1 * (y 2).val = win0_5.index t (1 : Fin 3) * 512 + (y 2).val; omega
    | ⟨3, _⟩ => show win0_6.index t (3 : Fin 4) * 512 + 1 * (y 3).val = (y 3).val; omega
  have E1 : ((cfg0.win 1).blk t).view.emb (ix3 (0 : Fin 1) (y 2) (y 3)) = ix3 b a n := by
    funext d; apply Fin.ext
    match d with
    | ⟨0, _⟩ => show win0_1.index t (0 : Fin 3) * 1 + 1 * 0 = win0_5.index t (0 : Fin 3); omega
    | ⟨1, _⟩ => show win0_1.index t (1 : Fin 3) * 512 + 1 * (y 2).val = win0_5.index t (1 : Fin 3) * 512 + (y 2).val; omega
    | ⟨2, _⟩ => show win0_1.index t (2 : Fin 3) * 512 + 1 * (y 3).val = (y 3).val; omega
  have E2 : ((cfg0.win 2).blk t).view.emb (ix3 (0 : Fin 1) (y 2) (y 3)) = ix3 b a n := by
    funext d; apply Fin.ext
    match d with
    | ⟨0, _⟩ => show win0_2.index t (0 : Fin 3) * 1 + 1 * 0 = win0_5.index t (0 : Fin 3); omega
    | ⟨1, _⟩ => show win0_2.index t (1 : Fin 3) * 512 + 1 * (y 2).val = win0_5.index t (1 : Fin 3) * 512 + (y 2).val; omega
    | ⟨2, _⟩ => show win0_2.index t (2 : Fin 3) * 512 + 1 * (y 3).val = (y 3).val; omega
  have E3 : ((cfg0.win 3).blk t).view.emb (ix3 (0 : Fin 1) (y 2) (y 3)) = ix3 b a n := by
    funext d; apply Fin.ext
    match d with
    | ⟨0, _⟩ => show win0_3.index t (0 : Fin 3) * 1 + 1 * 0 = win0_5.index t (0 : Fin 3); omega
    | ⟨1, _⟩ => show win0_3.index t (1 : Fin 3) * 512 + 1 * (y 2).val = win0_5.index t (1 : Fin 3) * 512 + (y 2).val; omega
    | ⟨2, _⟩ => show win0_3.index t (2 : Fin 3) * 512 + 1 * (y 3).val = (y 3).val; omega
  have E4 : ((cfg0.win 4).blk t).view.emb (ix3 (0 : Fin 1) (y 2) (y 3)) = ix3 b a n := by
    funext d; apply Fin.ext
    match d with
    | ⟨0, _⟩ => show win0_4.index t (0 : Fin 3) * 1 + 1 * 0 = win0_5.index t (0 : Fin 3); omega
    | ⟨1, _⟩ => show win0_4.index t (1 : Fin 3) * 512 + 1 * (y 2).val = win0_5.index t (1 : Fin 3) * 512 + (y 2).val; omega
    | ⟨2, _⟩ => show win0_4.index t (2 : Fin 3) * 512 + 1 * (y 3).val = (y 3).val; omega
  have E0 : ∀ j : Fin 3, ((cfg0.win 0).blk t).view.emb (ix3 (0 : Fin 1) j (y 2)) = ix3 b j a := by
    intro j
    have hj : j.val < 3 := j.isLt
    funext d; apply Fin.ext
    match d with
    | ⟨0, _⟩ => show win0_0.index t (0 : Fin 3) * 1 + 1 * 0 = win0_5.index t (0 : Fin 3); omega
    | ⟨1, _⟩ => show win0_0.index t (1 : Fin 3) * 3 + 1 * j.val = j.val; omega
    | ⟨2, _⟩ => show win0_0.index t (2 : Fin 3) * 512 + 1 * (y 2).val = win0_5.index t (1 : Fin 3) * 512 + (y 2).val; omega
  have H1 : iblk m c 1 t (ix3 (0 : Fin 1) (y 2) (y 3)) = At m c (ix3 b (Cert.Nbr.row (St m c) b a n) (0 : Fin 3)) := by
    show V m c main_v8 (((cfg0.win 1).blk t).view.emb (ix3 (0 : Fin 1) (y 2) (y 3))) = _; rw [E1, Cert.Nbr.Host.V_v8_apply]
  have H2 : iblk m c 2 t (ix3 (0 : Fin 1) (y 2) (y 3)) = At m c (ix3 b (Cert.Nbr.row (St m c) b a n) (1 : Fin 3)) := by
    show V m c main_v17 (((cfg0.win 2).blk t).view.emb (ix3 (0 : Fin 1) (y 2) (y 3))) = _; rw [E2, Cert.Nbr.Host.V_v17_apply]
  have H3 : iblk m c 3 t (ix3 (0 : Fin 1) (y 2) (y 3)) = At m c (ix3 b (Cert.Nbr.row (St m c) b a n) (2 : Fin 3)) := by
    show V m c main_v26 (((cfg0.win 3).blk t).view.emb (ix3 (0 : Fin 1) (y 2) (y 3))) = _; rw [E3, Cert.Nbr.Host.V_v26_apply]
  have H4 : iblk m c 4 t (ix3 (0 : Fin 1) (y 2) (y 3)) = Mk m c (ix3 b a n) := by
    show V m c main_arg2 (((cfg0.win 4).blk t).view.emb (ix3 (0 : Fin 1) (y 2) (y 3))) = _; rw [E4, V_main_arg2]
  have H0 : ∀ j : Fin 3, iblk m c 0 t (ix3 (0 : Fin 1) j (y 2)) = At m c (ix3 b a j) := by
    intro j
    show V m c main_v27 (((cfg0.win 0).blk t).view.emb (ix3 (0 : Fin 1) j (y 2))) = _; rw [E0 j, Cert.Nbr.Host.V_v27_apply]
  have HkAll : ∀ j : Fin 3, (![iblk m c 1 t, iblk m c 2 t, iblk m c 3 t] j) (ix3 (0 : Fin 1) (y 2) (y 3)) = At m c (ix3 b (Cert.Nbr.row (St m c) b a n) j) := by
    intro j
    match j with
    | ⟨0, _⟩ => exact H1
    | ⟨1, _⟩ => exact H2
    | ⟨2, _⟩ => exact H3
  have Hk : (![iblk m c 1 t, iblk m c 2 t, iblk m c 3 t] (y 1)) (ix3 (0 : Fin 1) (y 2) (y 3)) = At m c (ix3 b (Cert.Nbr.row (St m c) b a n) k) := HkAll k
  have H0k : iblk m c 0 t (ix3 (0 : Fin 1) (y 1) (y 2)) = At m c (ix3 b a k) := H0 k
  rw [Hk, H0k, H1, H2, H3, H4, H0 0, H0 1, H0 2, E6]
  rfl

/-- THE VECTORS' ARRAY after the run, coordinate-major. -/
theorem final6 (c : Dev nD) : (dats m 0 c).arrAt 6 cfg0.N = vecT (At m c) (St m c) (Mk m c) :=
  (dats m 0 c).arrAt_eq_of_cover 6 _ (fun t _ => flushed6_eq m c t) cover6

/-! ## After the region: the coordinate axis moved last -/

/-- The program's second result: the region's coordinate-major array with the coordinate axis moved last is the
    scaled difference vectors. -/
theorem tail_v29 (c : Dev nD) :
    Pipeline.afterTail₀ cfgs (dats m) 0 (V0 m) [hostOps1] c main_v29 = Cert.Nbr.vectors (At m c) (St m c) (Mk m c) := by
  unfold Pipeline.afterTail₀
  show StableHlo.after hostOps1 _ (Proc.devRef .tc main_v29) = _
  after_results
  have e : Pipeline.withArrays (cfgs 0).spec c (V0 m c) (fun w => (dats m 0 c).arrAt w (cfgs 0).N) (Proc.tc.devRef main_v28_1) = vecT (At m c) (St m c) (Mk m c) :=
    (Pipeline.withArrays_arr spec0 launch0.win.arr_inj c _ _ 6).trans (final6 m c)
  rw [e]
  funext i
  obtain ⟨b, a, n, k, rfl⟩ : ∃ (b : Fin 16) (a : Fin 2048) (n : Fin 512) (k : Fin 3), i = ix4 b a n k := ⟨i 0, i 1, i 2, i 3, eq_ix4 i⟩
  rw [Cert.Nbr.Host.transpose_tail]
  rfl

/-! ## The run, read -/

/-- Every weakly fair execution of the kernel's program terminates with the distances' buffer at the masked
    distances, the vectors' buffer at the scaled difference vectors, and the three arguments unchanged. -/
theorem run : θ_run defs (onTc (τ := τ) (main (F := Ideal))) ⟨m, fun _ => 0, ρ⟩ fun r => ∀ c : Dev nD,
      r.2.mem ((c.tc : Thread nD τ).loc main_v28_0) = Cert.Nbr.distances (At m c) (St m c) (Mk m c)
      ∧ r.2.mem ((c.tc : Thread nD τ).loc main_v29) = Cert.Nbr.vectors (At m c) (St m c) (Mk m c)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    have h0 := ((h c).2 main_arg0 (Pipeline.mem_restRefs_of main_arg0 (by decide) (by decide))).trans (W_main_arg0 m (dats m) c)
    have h1 := ((h c).2 main_arg1 (Pipeline.mem_restRefs_of main_arg1 (by decide) (by decide))).trans (W_main_arg1 m (dats m) c)
    have h2 := ((h c).1 4).trans (((dats m 0 c).arrAt_in 4 rfl _).trans ((A_eq m c 4).trans (V_main_arg2 m c)))
    ⟨((h c).1 5).trans (final5 m c),
     ((h c).2 main_v29 (Pipeline.mem_restRefs_of main_v29 (by decide) (by decide))).trans (tail_v29 m c),
     h1, h2, h0, h1, h2⟩) (run_main m ρ)

end Cert.Nbr.KernelValue

end
-- ==== Proof.RefRead.lean ====
/-
  The reference, element by element.

  The reference gathers, for every batch, atom and neighbour slot, the neighbour's whole row of three coordinates:
  read one operand axis at a time, the batch axis is a batching axis (the operand's batch is the result's), the atom
  axis is the indexed one (the start index read signed and clamped into [0, 2047]: the neighbour's row) and the
  coordinate axis is copied whole.  It subtracts the atom's own row, broadcast along the slots; squares and sums over
  the coordinate axis from the zero word — the three squares in the specification's grouping, by commutativity and
  associativity of the sum; takes the square root; keeps it where the mask word is non-zero and puts zero elsewhere;
  adds the small positive constant there and puts one elsewhere; and divides the difference vector by the result,
  broadcast along the coordinates — the specification's product with the reciprocal, because the divisor is never
  zero.  Read at one index each stage is the specification's scalar function of the stages before it.
-/
import proofs.«178371_j66245575573883_2_alg».proof.Proof.Gen.ReferenceIdeal.Read
import proofs.«178371_j66245575573883_2_alg».proof.Proof.Spec
import proofs.«178371_j66245575573883_2_alg».proof.Proof.Laws

noncomputable section

open scoped BigOperators

namespace Cert.Nbr.Ref

open Idealize.ShloMosaic Idealize.ShloMosaic.ValueIdx Cert.ReferenceIdeal Cert.ReferenceIdeal.Gen

/-- The gather's dimension numbers: axis 0 of the operand is a batching axis paired with axis 0 of the start
    indices, axis 1 is the indexed (and collapsed) one, axis 2 is copied whole onto the result's last axis. -/
abbrev gd : GatherDims S16x2048x3 S16x2048x512x1 S16x2048x512x3 :=
  gather_S16x2048x3_S16x2048x512x1_S16x2048x512x3_3_1_0_0_1_3_113

/-- The start-indices index at which result index `(b, a, n, c)` reads its one start component is `(b, a, n, 0)`. -/
theorem siIdx_eq (b : Fin 16) (a : Fin 2048) (n : Fin 512) (c : Fin 3) (k : Fin gd.startIndexMap.length) :
    gd.siIdx (ix4 b a n c) k = ix4 b a n (0 : Fin 1) := by
  funext e; refine Fin.ext ?_
  match e with
  | ⟨0, _⟩ => rfl
  | ⟨1, _⟩ => rfl
  | ⟨2, _⟩ => rfl
  | ⟨3, _⟩ => exact Nat.lt_one_iff.mp k.isLt

/-- THE GATHER READ AT `(b, a, n, c)`: the atoms' array at batch `b`, the neighbour's row, coordinate `c`. -/
theorem gather_apply {α : Type} (A : S16x2048x3.Idx → α) (I : IVec S16x2048x512x1 32)
    (b : Fin 16) (a : Fin 2048) (n : Fin 512) (c : Fin 3) :
    Host.gather gather_S16x2048x3_S16x2048x512x1_S16x2048x512x3_3_1_0_0_1_3_113 A I (ix4 b a n c)
      = A (ix3 b (Cert.Nbr.row I b a n) c) := by
  unfold Host.gather
  congr 1
  funext x
  refine Fin.ext ?_
  show gd.start (ix4 b a n c) I x + gd.batchCoord (ix4 b a n c) x + gd.offCoord (ix4 b a n c) x = _
  match x with
  | ⟨0, h0⟩ =>
    have hb : (⟨0, h0⟩ : Fin S16x2048x3.rank) ∈ gd.operandBatchingDims := List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl
  | ⟨1, h1⟩ =>
    have hm : (⟨1, h1⟩ : Fin S16x2048x3.rank) ∈ gd.startIndexMap := List.mem_singleton.mpr rfl
    have hc : (⟨1, h1⟩ : Fin S16x2048x3.rank) ∈ gd.collapsedSliceDims := List.mem_singleton.mpr rfl
    have hnb : (⟨1, h1⟩ : Fin S16x2048x3.rank) ∉ gd.operandBatchingDims := fun h =>
      absurd (show (1 : Nat) = 0 from congrArg Fin.val (List.mem_singleton.mp h)) (by decide)
    rw [GatherDims.batchCoord_eq_zero _ _ _ hnb,
      GatherDims.offCoord_eq_zero _ _ _ (fun h => ((GatherDims.mem_sKept _ _).mp h).1 hc)]
    unfold GatherDims.start
    rw [dif_pos hm, siIdx_eq]
    rfl
  | ⟨2, h2⟩ =>
    have hnm : (⟨2, h2⟩ : Fin S16x2048x3.rank) ∉ gd.startIndexMap := fun h =>
      absurd (show (2 : Nat) = 1 from congrArg Fin.val (List.mem_singleton.mp h)) (by decide)
    have hnc : (⟨2, h2⟩ : Fin S16x2048x3.rank) ∉ gd.collapsedSliceDims := fun h =>
      absurd (show (2 : Nat) = 1 from congrArg Fin.val (List.mem_singleton.mp h)) (by decide)
    have hnb : (⟨2, h2⟩ : Fin S16x2048x3.rank) ∉ gd.operandBatchingDims := fun h =>
      absurd (show (2 : Nat) = 0 from congrArg Fin.val (List.mem_singleton.mp h)) (by decide)
    have hk : (⟨2, h2⟩ : Fin S16x2048x3.rank) ∈ gd.sKept := (GatherDims.mem_sKept _ _).mpr ⟨hnc, hnb⟩
    rw [GatherDims.batchCoord_eq_zero _ _ _ hnb]
    unfold GatherDims.start
    rw [dif_neg hnm]
    unfold GatherDims.offCoord
    rw [dif_pos hk, Nat.add_zero, Nat.zero_add]
    rfl

/-! ## The layout operations' index functions at an index given by its coordinates -/

/-- The reduction over the coordinate axis reads `(b, a, n, k)` for its `k`-th summand. -/
theorem idx_call0_v1_ix (b : Fin 16) (a : Fin 2048) (n : Fin 512) (k : Fin 3) :
    Read.idx_main_call0_v1 (ix3 b a n) k = ix4 b a n k := by
  funext e; match e with | ⟨0, _⟩ => rfl | ⟨1, _⟩ => rfl | ⟨2, _⟩ => rfl | ⟨3, _⟩ => rfl

/-- Broadcasting the atoms along the neighbour-slot axis: `(b, a, n, c)` reads `(b, a, 0, c)` … -/
theorem idx_v8_ix (b : Fin 16) (a : Fin 2048) (n : Fin 512) (c : Fin 3) :
    Read.idx_main_v8 (ix4 b a n c) = ix4 b a (0 : Fin 1) c := by
  funext e; match e with | ⟨0, _⟩ => rfl | ⟨1, _⟩ => rfl | ⟨2, _⟩ => rfl | ⟨3, _⟩ => rfl

/-- … which reads the atoms' array at `(b, a, c)`. -/
theorem idx_v7_ix (b : Fin 16) (a : Fin 2048) (z : Fin 1) (c : Fin 3) :
    Read.idx_main_v7 (ix4 b a z c) = ix3 b a c := by
  funext e; match e with | ⟨0, _⟩ => rfl | ⟨1, _⟩ => rfl | ⟨2, _⟩ => rfl

/-- Broadcasting the divisor along the coordinate axis: `(b, a, n, c)` reads `(b, a, n, 0)` … -/
theorem idx_v18_ix (b : Fin 16) (a : Fin 2048) (n : Fin 512) (c : Fin 3) :
    Read.idx_main_v18 (ix4 b a n c) = ix4 b a n (0 : Fin 1) := by
  funext e; match e with | ⟨0, _⟩ => rfl | ⟨1, _⟩ => rfl | ⟨2, _⟩ => rfl | ⟨3, _⟩ => rfl

/-- … which reads the divisor at `(b, a, n)`. -/
theorem idx_v17_ix (b : Fin 16) (a : Fin 2048) (n : Fin 512) (z : Fin 1) :
    Read.idx_main_v17 (ix4 b a n z) = ix3 b a n := by
  funext e; match e with | ⟨0, _⟩ => rfl | ⟨1, _⟩ => rfl | ⟨2, _⟩ => rfl

/-- Giving the start indices their trailing axis of size one: `(b, a, n, 0)` reads the neighbour word at `(b, a, n)`. -/
theorem idx_v5_ix (b : Fin 16) (a : Fin 2048) (n : Fin 512) (z : Fin 1) :
    Read.idx_main_v5 (ix4 b a n z) = ix3 b a n := by
  funext e; match e with | ⟨0, _⟩ => rfl | ⟨1, _⟩ => rfl | ⟨2, _⟩ => rfl

/-! ## The reference's stages, element by element -/

section Stages

variable (A : (⟨S16x2048x3, .f32⟩ : BufTy).Contents (Elt Ideal))
  (J M : (⟨S16x2048x512, .i32⟩ : BufTy).Contents (Elt Ideal))

/-- The start index handed to the gather: the neighbour word, with the atoms' count added to it when it is negative. -/
theorem v5_at (b : Fin 16) (a : Fin 2048) (n : Fin 512) (z : Fin 1) :
    Read.val_main_v5 (F := Ideal) J (ix4 b a n z)
      = Scalar.select (IntOp.cmpi .slt (J (ix3 b a n)) 0#32) (IntOp.addi (J (ix3 b a n)) 2048#32) (J (ix3 b a n)) := by
  rw [Read.val_main_v5_apply, idx_v5_ix, Read.val_main_v4_apply, Read.val_main_v1_apply, Read.val_main_v0_apply,
    Read.val_main_c_apply, Read.val_main_v3_apply, Read.val_main_v2_apply, Read.val_main_c_0_apply]

/-- The subtraction's element is the difference vector's component: the gathered row's coordinate minus the atom's. -/
theorem v9_at (b : Fin 16) (a : Fin 2048) (n : Fin 512) (c : Fin 3) :
    Read.val_main_v9 (F := Ideal) A J (ix4 b a n c) = dv A (Read.val_main_v5 (F := Ideal) J) b a n c := by
  have h6 : Read.val_main_v6 (F := Ideal) A J (ix4 b a n c)
      = A (ix3 b (row (Read.val_main_v5 (F := Ideal) J) b a n) c) :=
    gather_apply A (Read.val_main_v5 (F := Ideal) J) b a n c
  rw [Read.val_main_v9_apply, h6, Read.val_main_v8_apply, Read.val_main_v7_apply, idx_v8_ix, idx_v7_ix]
  rfl

/-- The reduction's element is the squared length of the difference vector. -/
theorem sumsq_at (b : Fin 16) (a : Fin 2048) (n : Fin 512) :
    Read.val_main_call0_v1 (F := Ideal) A J (ix3 b a n)
      = ssq3 (dv A (Read.val_main_v5 (F := Ideal) J) b a n 0) (dv A (Read.val_main_v5 (F := Ideal) J) b a n 1)
          (dv A (Read.val_main_v5 (F := Ideal) J) b a n 2) := by
  rw [Read.val_main_call0_v1_apply]
  simp only [idx_call0_v1_ix, Read.val_main_call0_v0_apply, v9_at]
  exact sum_sq_eq (fun k => dv A (Read.val_main_v5 (F := Ideal) J) b a n k)

/-- THE FIRST RESULT: the reference's masked distances are the specification's. -/
theorem distances_eq :
    Read.val_main_v13 (F := Ideal) A J M = Cert.Nbr.distances A (Read.val_main_v5 (F := Ideal) J) M := by
  funext i
  obtain ⟨b, a, n, rfl⟩ : ∃ b a n, i = ix3 b a n := ⟨_, _, _, eq_ix3 i⟩
  rw [Read.val_main_v13_apply, Read.val_main_v12_apply, Read.val_main_v11_apply, Read.val_main_c_1_apply,
    Read.val_main_v10_apply, sumsq_at, Read.val_main_call1_v1_apply, Read.val_main_call1_v0_apply,
    Read.val_main_cst_apply]
  rfl

/-- The divisor's element: the masked distance plus the guard where the mask is set, one elsewhere. -/
theorem tmp_at (b : Fin 16) (a : Fin 2048) (n : Fin 512) :
    Read.val_main_v16 (F := Ideal) A J M (ix3 b a n) = tmp A (Read.val_main_v5 (F := Ideal) J) M b a n := by
  rw [Read.val_main_v16_apply, Read.val_main_v12_apply, Read.val_main_v11_apply, Read.val_main_c_1_apply,
    Read.val_main_v15_apply, distances_eq, Read.val_main_v14_apply, Read.val_main_cst_2_apply,
    Read.val_main_call2_v1_apply, Read.val_main_call2_v0_apply, Read.val_main_cst_3_apply]
  rfl

/-- THE SECOND RESULT: the reference's quotients are the specification's scaled difference vectors. -/
theorem vectors_eq :
    Read.val_main_v19 (F := Ideal) A J M = Cert.Nbr.vectors A (Read.val_main_v5 (F := Ideal) J) M := by
  funext i
  obtain ⟨b, a, n, c, rfl⟩ : ∃ b a n c, i = ix4 b a n c := ⟨_, _, _, _, eq_ix4 i⟩
  rw [Read.val_main_v19_apply, v9_at, Read.val_main_v18_apply, Read.val_main_v17_apply, idx_v18_ix, idx_v17_ix,
    tmp_at]
  exact (vecOf_eq_div _ _ _ _ _).symm

end Stages

end Cert.Nbr.Ref

end
-- ==== Proof.lean ====
/-
  The certificate: a Pallas kernel that turns neighbour lists into masked distances and scaled difference vectors,
  against its plain reference, on the extended reals.

  For batch `b`, atom `a`, neighbour slot `n`: the neighbour's row `r` is the neighbour word, with `2048` added
  when it is negative, read signed and clamped into `[0, 2047]`; the difference vector is
  `d c = atoms[b, r, c] - atoms[b, a, c]`; the distance is `sqrt (d 0 ² + d 1 ² + d 2 ²)` where the mask word is
  non-zero and `0` elsewhere; the divisor is the distance plus a small positive constant where the mask word is
  non-zero and `1` elsewhere.  The reference gathers whole rows, sums the three squares with a reduction and
  divides the difference vector by the divisor.  The kernel's program gathers the three coordinates separately, lays
  the atoms out coordinate-major, computes the sum of squares as `(x² + y²) + z²` inside the region, multiplies by the
  reciprocal of the divisor, and moves the coordinate axis back to the end.  Both are the functions of Spec: the two
  groupings of the sum agree because addition of extended reals is commutative and associative, and multiplying by
  the reciprocal is dividing because the divisor is never zero (Laws).  Neither law needs the inputs to be finite,
  so the precondition is not opened.

  The three frames are the generated ones (the reference's is its generated run with the results dropped); the
  idealization rewrote nothing, so `preserves` is trivial; `algebraic` states both runs' posts with the same arrays.
-/
import proofs.«178371_j66245575573883_2_alg».proof.Defs
import proofs.«178371_j66245575573883_2_alg».proof.Proof.Gen.Kernel
import proofs.«178371_j66245575573883_2_alg».proof.Proof.Gen.Kernel.Frame
import proofs.«178371_j66245575573883_2_alg».proof.Proof.Gen.KernelIdeal
import proofs.«178371_j66245575573883_2_alg».proof.Proof.Gen.KernelIdeal.Frame
import proofs.«178371_j66245575573883_2_alg».proof.Proof.Gen.ReferenceIdeal
import proofs.«178371_j66245575573883_2_alg».proof.Proof.Gen.ReferenceIdeal.Run
import proofs.«178371_j66245575573883_2_alg».proof.Proof.Gen.ReferenceIdeal.Read
import proofs.«178371_j66245575573883_2_alg».proof.Proof.Gen.Pre_finite_inputs
import proofs.«178371_j66245575573883_2_alg».proof.Proof.Spec
import proofs.«178371_j66245575573883_2_alg».proof.Proof.Laws
import proofs.«178371_j66245575573883_2_alg».proof.Proof.HostSide
import proofs.«178371_j66245575573883_2_alg».proof.Proof.KernelValue
import proofs.«178371_j66245575573883_2_alg».proof.Proof.RefRead
import Idealize.ShloMosaic.Adequacy
import Idealize.ShloMosaic.Init

noncomputable section

open Idealize.ShloMosaic Idealize.ShloMosaic.TcCoe Idealize.SL.Sem

namespace Cert.Proof.Claims

/-- The start indices the kernel's program builds are the reference's, as one function of the neighbour words. -/
theorem start_eq (m : (ℓ : Loc Cert.KernelIdeal.nD Cert.KernelIdeal.τ Cert.KernelIdeal.sig) → Buf (Elt Ideal) ℓ) (c : Dev Cert.KernelIdeal.nD) :
    Cert.Nbr.KernelValue.St m c
      = Cert.ReferenceIdeal.Read.val_main_v5 (F := Ideal) (m ((c.tc : Thread Cert.KernelIdeal.nD Cert.KernelIdeal.τ).loc Cert.KernelIdeal.main_arg1)) :=
  (Cert.Nbr.Host.V_v7 m c).trans rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- From memories agreeing on the three arguments, the kernel's run ends with the distances' and vectors' buffers at
    Spec's arrays of its arguments, and the reference's run at the same arrays of its own (equal) arguments. -/
theorem algebraic : Cert.algebraic_KernelIdeal_ReferenceIdeal := by
  intro m ρ m' ρ' _ hagree
  refine ⟨fun c => Cert.Nbr.distances (Cert.Nbr.KernelValue.At m c) (Cert.Nbr.KernelValue.St m c) (Cert.Nbr.KernelValue.Mk m c),
    fun c => Cert.Nbr.vectors (Cert.Nbr.KernelValue.At m c) (Cert.Nbr.KernelValue.St m c) (Cert.Nbr.KernelValue.Mk m c),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2),
    Cert.Nbr.KernelValue.run m ρ, ?_⟩
  refine (θ_run Cert.ReferenceIdeal.defs _ _).mono (fun _ h c => ?_) (Cert.ReferenceIdeal.Value.run (F := Ideal) m' ρ')
  obtain ⟨h13, h19, h1, h2, h0', h1', h2'⟩ := h c
  obtain ⟨a0, a1, a2⟩ := hagree c
  refine ⟨?_, ?_, h1.trans a1, h2.trans a2, h0', h1', h2'⟩
  · rw [h13, Cert.ReferenceIdeal.Read.val_main_v13_eq, Cert.Nbr.Ref.distances_eq, a0, a1, a2]
    show _ = Cert.Nbr.distances (Cert.Nbr.KernelValue.At m c) (Cert.Nbr.KernelValue.St m c) (Cert.Nbr.KernelValue.Mk m c)
    rw [start_eq m c]
  · rw [h19, Cert.ReferenceIdeal.Read.val_main_v19_eq, Cert.Nbr.Ref.vectors_eq, a0, a1, a2]
    show _ = Cert.Nbr.vectors (Cert.Nbr.KernelValue.At m c) (Cert.Nbr.KernelValue.St m c) (Cert.Nbr.KernelValue.Mk m c)
    rw [start_eq m c]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
